-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 60
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S50000x64, .f32⟩
  | .hbm, ⟨58, _⟩ => ⟨S1x64, .f32⟩
  | .hbm, ⟨59, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x64, .f32⟩
  | .hbm, ⟨67, _⟩ => ⟨S50000, .i32⟩
  | .hbm, ⟨68, _⟩ => ⟨S850000, .i32⟩
  | .hbm, ⟨69, _⟩ => ⟨S850000, .i32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x64, .f32⟩
  | .hbm, ⟨112, _⟩ => ⟨S850000x1, .f32⟩
  | .hbm, ⟨113, _⟩ => ⟨S850000x64, .f32⟩
  | .hbm, ⟨114, _⟩ => ⟨S850000x64, .f32⟩
  | .hbm, ⟨115, _⟩ => ⟨S_, .f32⟩
  | .hbm, ⟨116, _⟩ => ⟨S50000x64, .f32⟩
  | .hbm, ⟨117, _⟩ => ⟨S850000x1, .i32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_call1_v0 : Ref sig .tc := ⟨.hbm, 81, rfl⟩
abbrev main_call1_v1 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its RESULT named.

  Every weakly fair execution of the kernel's program terminates without a fault, and the final memory holds, at
  every buffer the three regions and the host stretches between them leave unscoped, the contents the fold through
  the program's segments computes.  Read at the result buffer this names the result: the last region's output array
  as its write-backs leave it.  The argument arrays end as launched.
-/
import proofs.«154043_j43155831390481_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.KernelHost.lean ====
/-
  What the kernel's host stretches and regions leave in the buffers that later steps read.

  The program's memory is followed through its eight segments (three host stretches before the first region, then
  region, host stretch, region, host stretch, region).  A buffer no operation of a stretch writes is unchanged by
  it; a region changes only its output array; an input array of a region is as the region found it.  So the edge
  words, the degree-factor column and the argument arrays reach every step that reads them with the contents they
  were first given.
-/
import proofs.«154043_j43155831390481_1_alg».proof.Proof.Gen.KernelIdeal.Frame
import Idealize.ShloMosaic.PureOps.Ideal

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

theorem W2_v1 : W2 m ρ c (Proc.devRef .tc main_v1) = W1 m ρ c (Proc.devRef .tc main_v1) := by
  show StableHlo.after hostOps0_1 (W1 m ρ c) (Proc.devRef .tc main_v1) = _
  after_results
theorem W3_v1 : W3 m ρ c (Proc.devRef .tc main_v1) = W2 m ρ c (Proc.devRef .tc main_v1) := by
  show StableHlo.after hostOps0_2 (W2 m ρ c) (Proc.devRef .tc main_v1) = _
  after_results
theorem W4_v1 : W4 m ρ c (Proc.devRef .tc main_v1) = W3 m ρ c (Proc.devRef .tc main_v1) :=
  W4_of_ne m ρ c main_v1 (by decide)
theorem W5_v1 : W5 m ρ c (Proc.devRef .tc main_v1) = W4 m ρ c (Proc.devRef .tc main_v1) := by
  show StableHlo.after hostOps1 (W4 m ρ c) (Proc.devRef .tc main_v1) = _
  after_results
theorem W6_v1 : W6 m ρ c (Proc.devRef .tc main_v1) = W5 m ρ c (Proc.devRef .tc main_v1) :=
  W6_of_ne m ρ c main_v1 (by decide)
theorem W2_v3 : W2 m ρ c (Proc.devRef .tc main_v3) = W1 m ρ c (Proc.devRef .tc main_v3) := by
  show StableHlo.after hostOps0_1 (W1 m ρ c) (Proc.devRef .tc main_v3) = _
  after_results
theorem W3_v3 : W3 m ρ c (Proc.devRef .tc main_v3) = W2 m ρ c (Proc.devRef .tc main_v3) := by
  show StableHlo.after hostOps0_2 (W2 m ρ c) (Proc.devRef .tc main_v3) = _
  after_results
theorem W4_v3 : W4 m ρ c (Proc.devRef .tc main_v3) = W3 m ρ c (Proc.devRef .tc main_v3) :=
  W4_of_ne m ρ c main_v3 (by decide)
theorem W5_v3 : W5 m ρ c (Proc.devRef .tc main_v3) = W4 m ρ c (Proc.devRef .tc main_v3) := by
  show StableHlo.after hostOps1 (W4 m ρ c) (Proc.devRef .tc main_v3) = _
  after_results
theorem W6_v3 : W6 m ρ c (Proc.devRef .tc main_v3) = W5 m ρ c (Proc.devRef .tc main_v3) :=
  W6_of_ne m ρ c main_v3 (by decide)
theorem W4_v14 : W4 m ρ c (Proc.devRef .tc main_v14) = W3 m ρ c (Proc.devRef .tc main_v14) :=
  (W4_arr m ρ c 2).trans (((dat0 (V3 m ρ) c).arrAt_in 2 rfl _).trans (A_eq0 (V3 m ρ) c 2))
theorem W5_v14 : W5 m ρ c (Proc.devRef .tc main_v14) = W4 m ρ c (Proc.devRef .tc main_v14) := by
  show StableHlo.after hostOps1 (W4 m ρ c) (Proc.devRef .tc main_v14) = _
  after_results
theorem W6_v14 : W6 m ρ c (Proc.devRef .tc main_v14) = W5 m ρ c (Proc.devRef .tc main_v14) :=
  (W6_arr m ρ c 1).trans (((dat1 (V5 m ρ) c).arrAt_in 1 rfl _).trans (A_eq1 (V5 m ρ) c 1))
theorem W7_v14 : W7 m ρ c (Proc.devRef .tc main_v14) = W6 m ρ c (Proc.devRef .tc main_v14) := by
  show StableHlo.after hostOps2 (W6 m ρ c) (Proc.devRef .tc main_v14) = _
  after_results
theorem W1_arg0 : W1 m ρ c (Proc.devRef .tc main_arg0) = W0 m ρ c (Proc.devRef .tc main_arg0) := by
  show StableHlo.after hostOps0 (W0 m ρ c) (Proc.devRef .tc main_arg0) = _
  after_results
theorem W2_arg0 : W2 m ρ c (Proc.devRef .tc main_arg0) = W1 m ρ c (Proc.devRef .tc main_arg0) := by
  show StableHlo.after hostOps0_1 (W1 m ρ c) (Proc.devRef .tc main_arg0) = _
  after_results
theorem W3_arg0 : W3 m ρ c (Proc.devRef .tc main_arg0) = W2 m ρ c (Proc.devRef .tc main_arg0) := by
  show StableHlo.after hostOps0_2 (W2 m ρ c) (Proc.devRef .tc main_arg0) = _
  after_results
theorem W1_arg2 : W1 m ρ c (Proc.devRef .tc main_arg2) = W0 m ρ c (Proc.devRef .tc main_arg2) := by
  show StableHlo.after hostOps0 (W0 m ρ c) (Proc.devRef .tc main_arg2) = _
  after_results
theorem W2_arg2 : W2 m ρ c (Proc.devRef .tc main_arg2) = W1 m ρ c (Proc.devRef .tc main_arg2) := by
  show StableHlo.after hostOps0_1 (W1 m ρ c) (Proc.devRef .tc main_arg2) = _
  after_results
theorem W3_arg2 : W3 m ρ c (Proc.devRef .tc main_arg2) = W2 m ρ c (Proc.devRef .tc main_arg2) := by
  show StableHlo.after hostOps0_2 (W2 m ρ c) (Proc.devRef .tc main_arg2) = _
  after_results
theorem W1_arg3 : W1 m ρ c (Proc.devRef .tc main_arg3) = W0 m ρ c (Proc.devRef .tc main_arg3) := by
  show StableHlo.after hostOps0 (W0 m ρ c) (Proc.devRef .tc main_arg3) = _
  after_results
theorem W2_arg3 : W2 m ρ c (Proc.devRef .tc main_arg3) = W1 m ρ c (Proc.devRef .tc main_arg3) := by
  show StableHlo.after hostOps0_1 (W1 m ρ c) (Proc.devRef .tc main_arg3) = _
  after_results
theorem W3_arg3 : W3 m ρ c (Proc.devRef .tc main_arg3) = W2 m ρ c (Proc.devRef .tc main_arg3) := by
  show StableHlo.after hostOps0_2 (W2 m ρ c) (Proc.devRef .tc main_arg3) = _
  after_results
theorem W4_arg3 : W4 m ρ c (Proc.devRef .tc main_arg3) = W3 m ρ c (Proc.devRef .tc main_arg3) :=
  W4_of_ne m ρ c main_arg3 (by decide)
theorem W1_arg4 : W1 m ρ c (Proc.devRef .tc main_arg4) = W0 m ρ c (Proc.devRef .tc main_arg4) := by
  show StableHlo.after hostOps0 (W0 m ρ c) (Proc.devRef .tc main_arg4) = _
  after_results
theorem W2_arg4 : W2 m ρ c (Proc.devRef .tc main_arg4) = W1 m ρ c (Proc.devRef .tc main_arg4) := by
  show StableHlo.after hostOps0_1 (W1 m ρ c) (Proc.devRef .tc main_arg4) = _
  after_results
theorem W3_arg4 : W3 m ρ c (Proc.devRef .tc main_arg4) = W2 m ρ c (Proc.devRef .tc main_arg4) := by
  show StableHlo.after hostOps0_2 (W2 m ρ c) (Proc.devRef .tc main_arg4) = _
  after_results
theorem W4_arg4 : W4 m ρ c (Proc.devRef .tc main_arg4) = W3 m ρ c (Proc.devRef .tc main_arg4) :=
  W4_of_ne m ρ c main_arg4 (by decide)
theorem W5_arg4 : W5 m ρ c (Proc.devRef .tc main_arg4) = W4 m ρ c (Proc.devRef .tc main_arg4) := by
  show StableHlo.after hostOps1 (W4 m ρ c) (Proc.devRef .tc main_arg4) = _
  after_results
theorem W1_arg5 : W1 m ρ c (Proc.devRef .tc main_arg5) = W0 m ρ c (Proc.devRef .tc main_arg5) := by
  show StableHlo.after hostOps0 (W0 m ρ c) (Proc.devRef .tc main_arg5) = _
  after_results
theorem W2_arg5 : W2 m ρ c (Proc.devRef .tc main_arg5) = W1 m ρ c (Proc.devRef .tc main_arg5) := by
  show StableHlo.after hostOps0_1 (W1 m ρ c) (Proc.devRef .tc main_arg5) = _
  after_results
theorem W3_arg5 : W3 m ρ c (Proc.devRef .tc main_arg5) = W2 m ρ c (Proc.devRef .tc main_arg5) := by
  show StableHlo.after hostOps0_2 (W2 m ρ c) (Proc.devRef .tc main_arg5) = _
  after_results
theorem W4_arg5 : W4 m ρ c (Proc.devRef .tc main_arg5) = W3 m ρ c (Proc.devRef .tc main_arg5) :=
  W4_of_ne m ρ c main_arg5 (by decide)
theorem W5_arg5 : W5 m ρ c (Proc.devRef .tc main_arg5) = W4 m ρ c (Proc.devRef .tc main_arg5) := by
  show StableHlo.after hostOps1 (W4 m ρ c) (Proc.devRef .tc main_arg5) = _
  after_results
theorem W6_arg5 : W6 m ρ c (Proc.devRef .tc main_arg5) = W5 m ρ c (Proc.devRef .tc main_arg5) :=
  W6_of_ne m ρ c main_arg5 (by decide)

/-! ## The same facts, end to end -/

theorem arg0_at3 : W3 m ρ c (Proc.devRef .tc main_arg0) = m ((c.tc : Thread nD τ).loc main_arg0) :=
  (W3_arg0 m ρ c).trans ((W2_arg0 m ρ c).trans ((W1_arg0 m ρ c).trans rfl))
theorem arg2_at3 : W3 m ρ c (Proc.devRef .tc main_arg2) = m ((c.tc : Thread nD τ).loc main_arg2) :=
  (W3_arg2 m ρ c).trans ((W2_arg2 m ρ c).trans ((W1_arg2 m ρ c).trans rfl))
theorem arg3_at4 : W4 m ρ c (Proc.devRef .tc main_arg3) = m ((c.tc : Thread nD τ).loc main_arg3) :=
  (W4_arg3 m ρ c).trans ((W3_arg3 m ρ c).trans ((W2_arg3 m ρ c).trans ((W1_arg3 m ρ c).trans rfl)))
theorem arg4_at5 : W5 m ρ c (Proc.devRef .tc main_arg4) = m ((c.tc : Thread nD τ).loc main_arg4) :=
  (W5_arg4 m ρ c).trans ((W4_arg4 m ρ c).trans ((W3_arg4 m ρ c).trans ((W2_arg4 m ρ c).trans ((W1_arg4 m ρ c).trans rfl))))
theorem arg5_at6 : W6 m ρ c (Proc.devRef .tc main_arg5) = m ((c.tc : Thread nD τ).loc main_arg5) :=
  (W6_arg5 m ρ c).trans ((W5_arg5 m ρ c).trans ((W4_arg5 m ρ c).trans ((W3_arg5 m ρ c).trans
    ((W2_arg5 m ρ c).trans ((W1_arg5 m ρ c).trans rfl)))))
theorem v1_at4 : W4 m ρ c (Proc.devRef .tc main_v1) = W1 m ρ c (Proc.devRef .tc main_v1) :=
  (W4_v1 m ρ c).trans ((W3_v1 m ρ c).trans (W2_v1 m ρ c))
theorem v1_at6 : W6 m ρ c (Proc.devRef .tc main_v1) = W1 m ρ c (Proc.devRef .tc main_v1) :=
  (W6_v1 m ρ c).trans ((W5_v1 m ρ c).trans (v1_at4 m ρ c))
theorem v3_at4 : W4 m ρ c (Proc.devRef .tc main_v3) = W1 m ρ c (Proc.devRef .tc main_v3) :=
  (W4_v3 m ρ c).trans ((W3_v3 m ρ c).trans (W2_v3 m ρ c))
theorem v3_at6 : W6 m ρ c (Proc.devRef .tc main_v3) = W1 m ρ c (Proc.devRef .tc main_v3) :=
  (W6_v3 m ρ c).trans ((W5_v3 m ρ c).trans (v3_at4 m ρ c))
theorem v14_at5 : W5 m ρ c (Proc.devRef .tc main_v14) = W3 m ρ c (Proc.devRef .tc main_v14) :=
  (W5_v14 m ρ c).trans (W4_v14 m ρ c)
theorem v14_at7 : W7 m ρ c (Proc.devRef .tc main_v14) = W3 m ρ c (Proc.devRef .tc main_v14) :=
  (W7_v14 m ρ c).trans ((W6_v14 m ρ c).trans (v14_at5 m ρ c))

end Cert.KernelIdeal.KHost

end
-- ==== Proof.Spec.lean ====
/-
  The two-layer graph convolution, written as functions of row and column over the extended reals.

  Nodes are numbered below 50000 and there are 800000 directed edges; the edge table holds a source word and a
  destination word per edge.  A row is FETCHED at an index word by wrapping a negative word by +50000, reading it
  signed and clamping into [0, 49999] (`rowOf`).  A row is ADDED INTO the node whose number equals the
  destination word read signed; a word that names no node adds nowhere.

  `convR` is one layer as the reference arranges it: every edge, and one self loop per node appended after the
  edges (`catW`), contributes the fetched source row times the product of the two degree factors.  `aggK`,
  `rowscale`, `affine` are the pieces the kernel arranges the same layer from: rows scaled once before the
  aggregation, the self loop added as a whole array, the second factor applied after the sum.
-/
import Idealize.ShloMosaic.PureOps.Ideal
import Idealize.ShloMosaic.Lib.ValueIdx

noncomputable section

namespace Cert.Gcn

open Idealize.ShloMosaic Idealize.ShloMosaic.ValueIdx
open scoped BigOperators

/-- The edge table: row 0 the source words, row 1 the destination words. -/
abbrev EdgeTable := IVec (⟨2, ![2, 800000]⟩ : Shape) 32

/-- A negative index word is wrapped by adding the number of nodes. -/
def wrapW (w : BitVec 32) : BitVec 32 :=
  Scalar.select (IntOp.cmpi .slt w 0#32) (IntOp.addi w 50000#32) w

/-- The row a fetch at index word `w` reads: wrapped, read signed, clamped into the table. -/
def rowOf (w : BitVec 32) : Fin 50000 := ⟨min (wrapW w).toInt.toNat (50000 - 1), by omega⟩

/-- Source word of edge `e`. -/
def srcW (ei : EdgeTable) (e : Fin 800000) : BitVec 32 := ei (ix2 0 e)

/-- Destination word of edge `e`. -/
def dstW (ei : EdgeTable) (e : Fin 800000) : BitVec 32 := ei (ix2 1 e)

/-- A column of edge words with the self loops appended: position `800000 + n` carries the word of node `n`. -/
def catW (f : Fin 800000 → BitVec 32) (p : Fin 850000) : BitVec 32 :=
  if h : p.val < 800000 then f ⟨p.val, h⟩ else BitVec.ofNat 32 (p.val - 800000)

variable {K C : Nat}

/-- Rows times a matrix. -/
def mm (X : Fin 50000 → Fin K → EReal) (W : Fin K → Fin C → EReal) (r : Fin 50000) (c : Fin C) : EReal :=
  ∑ k : Fin K, X r k * W k c

/-- One layer as the reference sums it: over edges and self loops landing on node `b`, the fetched source row
    times the source's and the destination's degree factors; then the bias. -/
def convR (ei : EdgeTable) (d : Fin 50000 → EReal) (H : Fin 50000 → Fin C → EReal) (bias : Fin C → EReal)
    (b : Fin 50000) (c : Fin C) : EReal :=
  (0 + ∑ p ∈ Finset.univ.filter (fun p : Fin 850000 => (catW (dstW ei) p).toInt = (b.val : Int)),
      H (rowOf (catW (srcW ei) p)) c * (d (rowOf (catW (srcW ei) p)) * d (rowOf (catW (dstW ei) p)))) + bias c

/-- Every row scaled by its node's degree factor. -/
def rowscale (H : Fin 50000 → Fin C → EReal) (d : Fin 50000 → EReal) (r : Fin 50000) (c : Fin C) : EReal :=
  H r c * d r

/-- The kernel's aggregation: the fetched source rows of the edges landing on node `b`, plus node `b`'s own row. -/
def aggK (ei : EdgeTable) (Hp : Fin 50000 → Fin C → EReal) (b : Fin 50000) (c : Fin C) : EReal :=
  (0 + ∑ e ∈ Finset.univ.filter (fun e : Fin 800000 => (dstW ei e).toInt = (b.val : Int)), Hp (rowOf (srcW ei e)) c)
    + Hp b c

/-- Degree factor times the aggregate, plus the bias. -/
def affine (d : Fin 50000 → EReal) (A : Fin 50000 → Fin C → EReal) (bias : Fin C → EReal)
    (r : Fin 50000) (c : Fin C) : EReal :=
  d r * A r c + bias c

end Cert.Gcn

end
-- ==== Proof.LibGatherRows.lean ====
/-
  `stablehlo.gather` by a COLUMN of start indices, read at an index.  No program is imported.

  What `x[idx]` lowers to when the integer array `idx` of `M` indices is passed as an `[M, 1]` array (index vector
  axis 1, one component per start index):

  * `gather_flat_apply`: of a flat operand `x : [N]`, result `[M]` — element `p` is `x` at the start index `idx[p, 0]`
    read as a signed integer and clamped into `[0, N − 1]`;
  * `gather_rows_apply`: of a table of rows `x : [A, C]`, result `[M, C]` (whole rows: slice sizes `[1, C]`, axis 0
    collapsed, axis 1 the result's offset axis) — element `(p, k)` is `x` at row `idx[p, 0]`, read signed and clamped
    into `[0, A − 1]`, and column `k`.

  The dimension numbers are literal records with an arbitrary proof of their conditions, so a program's own record
  with the same fields is one of these by `rfl`.
-/
import Idealize.ShloMosaic.Lib.ValueIdx

noncomputable section

namespace Cert.Moe

open Idealize.ShloMosaic Idealize.ShloMosaic.ValueIdx

section
variable {α : Type}

/-- Dimension numbers of a flat gather by a column of indices: operand `[N]`, start indices `[M, 1]`, result `[M]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `p`: the operand at the start index `idx[p, 0]`, read signed and clamped into
    `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (p : Fin M) :
    Host.gather (flatDims N M wf) x idx (ix1 p) = x (ix1 ⟨min (idx (ix2 p 0)).toInt.toNat (N - 1), by omega⟩) := by
  unfold Host.gather
  refine congrArg x ?_
  funext a
  obtain rfl : a = 0 := Subsingleton.elim _ _
  refine Fin.ext ?_
  show (flatDims N M wf).start (ix1 p) idx 0 + (flatDims N M wf).batchCoord (ix1 p) 0
    + (flatDims N M wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 p) ⟨List.idxOf (0 : Fin 1) (flatDims N M wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

/-- Dimension numbers of a gather of whole rows by a column of indices: operand `[A, C]`, start indices `[M, 1]`,
    result `[M, C]`. -/
abbrev rowDims (A C M : Nat) (wf : GatherDims.WF ⟨2, ![A, C]⟩ ⟨2, ![M, 1]⟩ ⟨2, ![M, C]⟩ [1] [0] [] [0] [] 1 ![1, C]) :
    GatherDims ⟨2, ![A, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

set_option maxHeartbeats 50000 in
/-- THE ROW GATHER READ AT `(p, k)`: the operand at the row `idx[p, 0]`, read signed and clamped into `[0, A − 1]`,
    and column `k`. -/
theorem gather_rows_apply {A C M w : Nat} (hA : 0 < A)
    (wf : GatherDims.WF ⟨2, ![A, C]⟩ ⟨2, ![M, 1]⟩ ⟨2, ![M, C]⟩ [1] [0] [] [0] [] 1 ![1, C])
    (x : (⟨2, ![A, C]⟩ : Shape).Idx → α) (idx : IVec ⟨2, ![M, 1]⟩ w) (p : Fin M) (k : Fin C) :
    Host.gather (rowDims A C M wf) x idx (ix2 p k)
      = x (ix2 ⟨min (idx (ix2 p 0)).toInt.toNat (A - 1), by omega⟩ k) := by
  unfold Host.gather
  refine congrArg x ?_
  funext a
  refine Fin.ext ?_
  match a with
  | ⟨0, _⟩ =>
    show (rowDims A C M wf).start (ix2 p k) idx 0 + (rowDims A C M wf).batchCoord (ix2 p k) 0
      + (rowDims A C M wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims A C M wf).startIndexMap from List.mem_singleton.mpr rfl)]
    have hsi : (rowDims A C M wf).siIdx (ix2 p k) ⟨List.idxOf (0 : Fin 2) (rowDims A C M wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims A C M wf).start (ix2 p k) idx 1 + (rowDims A C M wf).batchCoord (ix2 p k) 1
      + (rowDims A C M wf).offCoord (ix2 p k) 1 = k.val
    have hs : (rowDims A C M wf).start (ix2 p k) idx 1 = 0 := by
      unfold GatherDims.start
      rw [dif_neg (show (1 : Fin 2) ∉ (rowDims A C M wf).startIndexMap from
        (by decide : (1 : Fin 2) ∉ [(0 : Fin 2)]))]
    have ho : (rowDims A C M wf).offCoord (ix2 p k) 1 = k.val := by
      unfold GatherDims.offCoord
      rw [dif_pos (show (1 : Fin 2) ∈ (rowDims A C M wf).sKept from
        (GatherDims.mem_sKept _ _).mpr ⟨(by decide : (1 : Fin 2) ∉ [(0 : Fin 2)]), List.not_mem_nil⟩)]
      rfl
    rw [hs, ho, GatherDims.batchCoord_eq_zero _ _ _ List.not_mem_nil]
    omega

end

end Cert.Moe

end
-- ==== Proof.LibScatterLanding.lean ====
/-
  Where a scatter's update lands, for ANY scatter dimension numbers.

  An update element `j` of a `stablehlo.scatter` lands on operand index `i` exactly when, on every operand axis,
  the start read off the scatter indices (a signed integer, not clamped) plus `j`'s window coordinate equals `i`'s
  coordinate; otherwise — some axis out of range — the update is dropped.  This turns the option-valued
  `ScatterDims.resultIdx?` into one equation per axis, which is the form in which an accumulating scatter's exact
  sum ("each operand element plus the sum of the updates landing on it") is re-indexed by hand.
-/
import Idealize.ShloMosaic.PureOps.Ideal

namespace Idealize.ShloMosaic.ScatterDims

/-- An update lands on operand index `i` exactly when, on every axis, start plus window coordinate is
    `i`'s coordinate (which is then in range, so nothing is dropped). -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show _ = (((d.start j idx a + (d.window j a : Int)).toNat : Nat) : Int)
      omega
    · intro e
      funext a
      apply Fin.ext
      have := e a
      have := h a
      show (d.start j idx a + (d.window j a : Int)).toNat = (i a).val
      omega
  · rename_i h
    constructor
    · intro e; cases e
    · intro e
      exfalso
      apply h
      intro a
      have := e a
      have := (i a).isLt
      omega

end Idealize.ShloMosaic.ScatterDims
-- ==== Proof.LibScatterRows.lean ====
/-
  An accumulating `stablehlo.scatter` of ROWS into a table, read at an element.  No program is imported.

  What `x.at[idx].add(upd)` lowers to for a table `x : [A, C]`, `M` row indices passed as an `[M, 1]` array and `M`
  rows of updates `upd : [M, C]` (update window axis 1, inserted window axis 0, the one index component naming
  operand axis 0): update element `(p, c)` lands on table element `(b, h)` exactly when the index `idx[p, 0]`, read
  as a signed integer, is `b` and `c = h` — an index outside `[0, A)` lands nowhere and the row is dropped.  So, over
  the extended reals, the result's element `(b, h)` is `x[b, h]` plus the sum, over the rows `p` whose index is `b`,
  of `upd[p, h]` (`scatterAdd_rows_apply`).

  The dimension numbers are a literal record with an arbitrary proof of its conditions, so a program's own record
  with the same fields is this one by `rfl`.
-/
import Idealize.ShloMosaic.PureOps.Ideal
import Idealize.ShloMosaic.Lib.ValueIdx
import proofs.«154043_j43155831390481_1_alg».proof.Proof.LibScatterLanding

noncomputable section

namespace Cert.Moe

open Idealize.ShloMosaic Idealize.ShloMosaic.ValueIdx
open scoped BigOperators

/-- Dimension numbers of a scatter of whole rows by a column of indices: operand `[A, C]`, scatter indices `[M, 1]`,
    updates `[M, C]`. -/
abbrev rowScatter (A C M : Nat) (wf : ScatterDims.WF ⟨2, ![A, C]⟩ ⟨2, ![M, 1]⟩ ⟨2, ![M, C]⟩ [1] [0] [0] 1) :
    ScatterDims ⟨2, ![A, C]⟩ ⟨2, ![M, 1]⟩ ⟨2, ![M, C]⟩ where
  updateWindowDims := [1]
  insertedWindowDims := [0]
  scatterDimsToOperandDims := [0]
  indexVectorDim := 1
  wf := wf

section
variable {A C M w : Nat} (wf : ScatterDims.WF ⟨2, ![A, C]⟩ ⟨2, ![M, 1]⟩ ⟨2, ![M, C]⟩ [1] [0] [0] 1)
  (idx : IVec ⟨2, ![M, 1]⟩ w) (p : Fin M) (c : Fin C)

/-- On the row axis the window starts at the row index, read signed … -/
theorem rowScatter_start0 : (rowScatter A C M wf).start (ix2 p c) idx 0 = (idx (ix2 p 0)).toInt := by
  unfold ScatterDims.start
  rw [dif_pos (show (0 : Fin 2) ∈ (rowScatter A C M wf).scatterDimsToOperandDims from List.mem_singleton.mpr rfl)]
  have hsi : (rowScatter A C M wf).siIdx (ix2 p c) ⟨List.idxOf (0 : Fin 2) (rowScatter A C M wf).scatterDimsToOperandDims,
      List.idxOf_lt_length_iff.2 (List.mem_singleton.mpr rfl)⟩ = ix2 p 0 := by
    funext b; refine Fin.ext ?_
    match b with
    | ⟨0, _⟩ => rfl
    | ⟨1, _⟩ => rfl
  rw [hsi]

/-- … and the window has no extent there; -/
theorem rowScatter_window0 : (rowScatter A C M wf).window (ix2 p c) 0 = 0 := by
  unfold ScatterDims.window
  rw [dif_neg]
  show (0 : Fin 2) ∉ (List.finRange 2).filter (· ∉ [(0 : Fin 2)])
  decide

/-- on the column axis the window starts at `0` … -/
theorem rowScatter_start1 : (rowScatter A C M wf).start (ix2 p c) idx 1 = 0 := by
  unfold ScatterDims.start
  rw [dif_neg (show (1 : Fin 2) ∉ (rowScatter A C M wf).scatterDimsToOperandDims from
    (by decide : (1 : Fin 2) ∉ [(0 : Fin 2)]))]

/-- … and its coordinate is the update's column. -/
theorem rowScatter_window1 : (rowScatter A C M wf).window (ix2 p c) 1 = c.val := by
  unfold ScatterDims.window
  rw [dif_pos (show (1 : Fin 2) ∈ (rowScatter A C M wf).sKept from
    (by decide : (1 : Fin 2) ∈ (List.finRange 2).filter (· ∉ [(0 : Fin 2)])))]
  rfl

/-- WHERE A ROW'S ELEMENT LANDS: update `(p, c)` lands on `(b, h)` exactly when row `p`'s index, read signed, is `b`
    and the columns agree. -/
theorem rowScatter_lands (b : Fin A) (h : Fin C) :
    (rowScatter A C M wf).resultIdx? (ix2 p c) idx = some (ix2 b h)
      ↔ (idx (ix2 p 0)).toInt = (b.val : Int) ∧ c = h := by
  rw [ScatterDims.resultIdx?_eq_some_iff]
  constructor
  · intro e
    have e0 := e 0
    have e1 := e 1
    rw [rowScatter_start0, rowScatter_window0] at e0
    rw [rowScatter_start1, rowScatter_window1] at e1
    refine ⟨?_, Fin.ext ?_⟩
    · have : ((ix2 b h : (⟨2, ![A, C]⟩ : Shape).Idx) 0).val = b.val := rfl
      rw [this] at e0
      omega
    · have : ((ix2 b h : (⟨2, ![A, C]⟩ : Shape).Idx) 1).val = h.val := rfl
      rw [this] at e1
      omega
  · rintro ⟨e0, rfl⟩ a
    match a with
    | ⟨0, _⟩ =>
      show (rowScatter A C M wf).start (ix2 p c) idx 0 + ((rowScatter A C M wf).window (ix2 p c) 0 : Int) = (b.val : Int)
      rw [rowScatter_start0, rowScatter_window0, e0]
      omega
    | ⟨1, _⟩ =>
      show (rowScatter A C M wf).start (ix2 p c) idx 1 + ((rowScatter A C M wf).window (ix2 p c) 1 : Int) = (c.val : Int)
      rw [rowScatter_start1, rowScatter_window1]
      omega

end

/-- THE ROW SCATTER-ADD READ AT `(b, h)`: the table's element plus the sum of column `h` of the update rows whose
    index, read signed, is `b`. -/
theorem scatterAdd_rows_apply {A C M w : Nat} (wf : ScatterDims.WF ⟨2, ![A, C]⟩ ⟨2, ![M, 1]⟩ ⟨2, ![M, C]⟩ [1] [0] [0] 1)
    (x : (⟨2, ![A, C]⟩ : Shape).Idx → EReal) (idx : IVec ⟨2, ![M, 1]⟩ w) (upd : (⟨2, ![M, C]⟩ : Shape).Idx → EReal)
    (b : Fin A) (h : Fin C) :
    Ideal.hostScatterAdd (rowScatter A C M wf) x idx upd (ix2 b h)
      = x (ix2 b h) + ∑ p ∈ Finset.univ.filter (fun p : Fin M => (idx (ix2 p 0)).toInt = (b.val : Int)), upd (ix2 p h) := by
  unfold Ideal.hostScatterAdd
  refine congrArg (x (ix2 b h) + ·) ?_
  rw [Finset.sum_filter, sum_idx2, Finset.sum_filter]
  refine Finset.sum_congr rfl fun p _ => ?_
  by_cases hp : (idx (ix2 p 0)).toInt = (b.val : Int)
  · rw [if_pos hp]
    rw [Finset.sum_eq_single h]
    · rw [if_pos ((rowScatter_lands wf idx p h b h).mpr ⟨hp, rfl⟩)]
    · intro c _ hc
      rw [if_neg fun e => hc ((rowScatter_lands wf idx p c b h).mp e).2]
    · intro hh
      exact absurd (Finset.mem_univ h) hh
  · rw [if_neg hp]
    refine Finset.sum_eq_zero fun c _ => ?_
    rw [if_neg fun e => hp ((rowScatter_lands wf idx p c b h).mp e).1]

end Cert.Moe

end
-- ==== Proof.HostAgg.lean ====
/-
  The kernel's aggregation step between two regions, read at (node, column), on the extended reals.

  The host fetches, for every edge, the row of a [50000, C] array at the edge's source word (a negative word wrapped
  by +50000, then read signed and clamped), adds each fetched row into the row its destination word names (read
  signed, not clamped: a word naming no node adds nowhere) starting from zeros, and adds the array itself.  At
  (b, c) that is: zero, plus the sum over the edges whose destination reads `b` of the fetched entry in column `c`,
  plus the array's own entry (b, c) — `Gcn.aggK`.
-/
import Idealize.ShloMosaic.Lib.Pipeline.Value
import Idealize.ShloMosaic.PureOps.Ideal.Laws
import proofs.«154043_j43155831390481_1_alg».proof.Proof.Spec
import proofs.«154043_j43155831390481_1_alg».proof.Proof.LibGatherRows
import proofs.«154043_j43155831390481_1_alg».proof.Proof.LibScatterRows

noncomputable section

namespace Cert.Gcn

open Idealize.ShloMosaic Idealize.ShloMosaic.ValueIdx
open scoped BigOperators

/-- A vector laid out as a column reads, at (p, 0), its entry p. -/
theorem column_apply {α : Type} {M : Nat} (h : (⟨1, ![M]⟩ : Shape).BroadcastsInDim ⟨2, ![M, 1]⟩ ![0])
    (x : (⟨1, ![M]⟩ : Shape).Idx → α) (p : Fin M) :
    broadcastInDim ⟨2, ![M, 1]⟩ ![0] h x (ix2 p (0 : Fin 1)) = x (ix1 p) := by
  refine broadcastInDim_apply ![0] h x (ix2 p (0 : Fin 1)) (ix1 p) fun a => ?_
  match a with
  | ⟨0, _⟩ =>
    show p.val = if M = 1 then 0 else p.val
    split
    · have := p.isLt; omega
    · rfl

/-- The zero word spread over any shape reads the real zero everywhere. -/
theorem zeros_apply {t : Shape} (h : (⟨0, ![]⟩ : Shape).BroadcastsInDim t ![]) (j : t.Idx) :
    broadcastInDim t ![] h (constant (F := Ideal) ⟨0, ![]⟩ .f32 0x00000000#32) j = (0 : EReal) := by
  have hc : constant (F := Ideal) ⟨0, ![]⟩ .f32 0x00000000#32 (fun a : Fin 0 => a.elim0)
      = FloatOps.ofBits (F := Ideal) .f32 0x00000000#32 := rfl
  rw [broadcastInDim_apply (s := ⟨0, ![]⟩) ![] h _ j (fun a => a.elim0) (fun a => a.elim0), hc, Ideal.ofBits_def,
    Ideal.ofBits_zero_f32]

/-- A word that is the wrap of `v`, read signed and clamped into the table, names the row `rowOf v`. -/
theorem rowOf_of_eq (w v : BitVec 32) (h : w = wrapW v) (hlt : min w.toInt.toNat (50000 - 1) < 50000) :
    (⟨min w.toInt.toNat (50000 - 1), hlt⟩ : Fin 50000) = rowOf v := by
  subst h
  rfl

/-- The wrap of a possibly negative index, as the program spells it over a vector, read at an entry. -/
theorem wrapVec_apply {M : Nat} (hbs : (⟨0, ![]⟩ : Shape).BroadcastsInDim ⟨1, ![M]⟩ ![]) (srcv : IVec ⟨1, ![M]⟩ 32)
    (e : Fin M) :
    select (cmpi .slt srcv (broadcastInDim ⟨1, ![M]⟩ ![] hbs (constantI ⟨0, ![]⟩ 32 0#32)))
        (addi srcv (broadcastInDim ⟨1, ![M]⟩ ![] hbs (constantI ⟨0, ![]⟩ 32 50000#32))) srcv (ix1 e)
      = wrapW (srcv (ix1 e)) := rfl

variable {C : Nat}

/-- A fetched row: the array's row at the wrapped source word of edge `e`.  The dimension numbers are any record
    equal to the row gather's. -/
theorem fetched_apply {α : Type}
    (d : GatherDims ⟨2, ![50000, C]⟩ ⟨2, ![800000, 1]⟩ ⟨2, ![800000, C]⟩)
    (wfG : GatherDims.WF ⟨2, ![50000, C]⟩ ⟨2, ![800000, 1]⟩ ⟨2, ![800000, C]⟩ [1] [0] [] [0] [] 1 ![1, C])
    (hd : d = Cert.Moe.rowDims 50000 C 800000 wfG)
    (Hp : (⟨2, ![50000, C]⟩ : Shape).Idx → α) (iS : IVec ⟨2, ![800000, 1]⟩ 32) (v : BitVec 32) (e : Fin 800000) (c : Fin C)
    (hS : iS (ix2 e 0) = wrapW v) :
    Host.gather d Hp iS (ix2 e c) = Hp (ix2 (rowOf v) c) := by
  subst hd
  rw [Cert.Moe.gather_rows_apply (by norm_num)]
  exact congrArg (fun r => Hp (ix2 r c)) (rowOf_of_eq _ _ hS _)

/-- THE AGGREGATION from what its arrays hold: the fetched rows added into zeros at the destination word read
    signed, plus the array itself, is `aggK`. -/
theorem agg_of_reads
    (wfS : ScatterDims.WF ⟨2, ![50000, C]⟩ ⟨2, ![800000, 1]⟩ ⟨2, ![800000, C]⟩ [1] [0] [0] 1)
    (ei : EdgeTable) (Hp' : Fin 50000 → Fin C → EReal)
    (zero : FVec Ideal ⟨2, ![50000, C]⟩ .f32) (idx : IVec ⟨2, ![800000, 1]⟩ 32)
    (upd : FVec Ideal ⟨2, ![800000, C]⟩ .f32) (Hp : FVec Ideal ⟨2, ![50000, C]⟩ .f32)
    (hz : ∀ (b : Fin 50000) (c : Fin C), zero (ix2 b c) = (0 : EReal))
    (hidx : ∀ e : Fin 800000, idx (ix2 e 0) = dstW ei e)
    (hupd : ∀ (e : Fin 800000) (c : Fin C), upd (ix2 e c) = Hp' (rowOf (srcW ei e)) c)
    (hH : ∀ (b : Fin 50000) (c : Fin C), Hp (ix2 b c) = Hp' b c) (b : Fin 50000) (c : Fin C) :
    addf (Host.scatterAdd (F := Ideal) (Cert.Moe.rowScatter 50000 C 800000 wfS) zero idx upd) Hp (ix2 b c)
      = aggK ei Hp' b c := by
  rw [addf_apply]
  unfold Host.scatterAdd
  rw [Idealize.ShloMosaic.Ideal.hostScatterAdd_def, Cert.Moe.scatterAdd_rows_apply, hz, hH]
  unfold aggK
  have hf : (Finset.univ.filter fun e : Fin 800000 => (idx (ix2 e 0)).toInt = (b.val : Int))
      = Finset.univ.filter (fun e : Fin 800000 => (dstW ei e).toInt = (b.val : Int)) :=
    Finset.filter_congr (fun e _ => by rw [hidx])
  rw [hf]
  exact congrArg (fun s => (0 + s) + Hp' b c) (Finset.sum_congr rfl fun e _ => hupd e c)

end Cert.Gcn

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.KernelStages.lean ====
/-
  The kernel's host steps read at an index.

  The edge words are rows 0 and 1 of the edge table; the degree-factor column's entry (n, 0) is the factor vector's
  entry n; a bias laid out as a single row reads its entry j at (0, j); and each aggregation between two regions
  is, at (b, j), zero plus the sum over the edges whose destination word reads b of the previous region's output
  at the fetched source row, plus that output's own entry (b, j).
-/
import proofs.«154043_j43155831390481_1_alg».proof.Proof.KernelHost
import proofs.«154043_j43155831390481_1_alg».proof.Proof.HostAgg
import proofs.«154043_j43155831390481_1_alg».proof.Proof.LibKeepdims

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo Idealize.ShloMosaic.ValueIdx
open scoped BigOperators

variable (m : (ℓ : Loc nD τ sig) → Buf (Elt Ideal) ℓ) (ρ : Dev nD → PrngReg) (c : Dev nD)

/-- A vector laid out as a single row reads, at (0, j), its entry j. -/
theorem row_apply {α : Type} {a : Nat} (x : (⟨1, ![a]⟩ : Shape).Idx → α) (h : (⟨1, ![a]⟩ : Shape).ShapeCasts ⟨2, ![1, a]⟩)
    (j : Fin a) : shapeCast ⟨2, ![1, a]⟩ x h (ix2 (0 : Fin 1) j) = x (ix1 j) :=
  shapeCast_apply x h _ _ (by
    rw [Shape.rowMajor_val_two, Shape.rowMajor_val_one]
    show j.val = 0 * a + j.val
    omega)

/-- The source word of edge e is the edge table's entry (0, e). -/
theorem src_apply (e : Fin 800000) :
    W1 m ρ c (Proc.devRef .tc main_v1) (ix1 e) = Cert.Gcn.srcW (m ((c.tc : Thread nD τ).loc main_arg1)) e := by
  show StableHlo.after hostOps0 (W0 m ρ c) (Proc.devRef .tc main_v1) (ix1 e) = _
  after_results
  refine (shapeCast_apply _ shapeCasts_S1x800000_S800000 (ix1 e) (ix2 (0 : Fin 1) e) (by
    rw [Shape.rowMajor_val_two, Shape.rowMajor_val_one]
    show 0 * 800000 + e.val = e.val
    omega)).trans ?_
  exact extractStridedSlice_apply ![0, 0] _ slices_S2x800000_S1x800000_0_0 (ix2 (0 : Fin 1) e) (ix2 (0 : Fin 2) e)
    (fun a => match a with
      | ⟨0, _⟩ => rfl
      | ⟨1, _⟩ => by show e.val = 0 + e.val; omega)

/-- The destination word of edge e is the edge table's entry (1, e). -/
theorem dst_apply (e : Fin 800000) :
    W1 m ρ c (Proc.devRef .tc main_v3) (ix1 e) = Cert.Gcn.dstW (m ((c.tc : Thread nD τ).loc main_arg1)) e := by
  show StableHlo.after hostOps0 (W0 m ρ c) (Proc.devRef .tc main_v3) (ix1 e) = _
  after_results
  refine (shapeCast_apply _ shapeCasts_S1x800000_S800000 (ix1 e) (ix2 (0 : Fin 1) e) (by
    rw [Shape.rowMajor_val_two, Shape.rowMajor_val_one]
    show 0 * 800000 + e.val = e.val
    omega)).trans ?_
  exact extractStridedSlice_apply ![1, 0] _ slices_S2x800000_S1x800000_1_0 (ix2 (0 : Fin 1) e) (ix2 (1 : Fin 2) e)
    (fun a => match a with
      | ⟨0, _⟩ => rfl
      | ⟨1, _⟩ => by show e.val = 0 + e.val; omega)

/-- The degree-factor column's entry (n, 0) is the factor vector's entry n. -/
theorem dcol_apply (n : Fin 50000) :
    W3 m ρ c (Proc.devRef .tc main_v14) (ix2 n (0 : Fin 1)) = W2 m ρ c (Proc.devRef .tc main_v13) (ix1 n) := by
  show StableHlo.after hostOps0_2 (W2 m ρ c) (Proc.devRef .tc main_v14) (ix2 n (0 : Fin 1)) = _
  after_results
  exact Keepdims.shapeCast_a_a1_apply _ shapeCasts_S50000_S50000x1 n 0

/-- The first bias as a row. -/
theorem v27_apply (j : Fin 128) :
    W5 m ρ c (Proc.devRef .tc main_v27) (ix2 (0 : Fin 1) j) = m ((c.tc : Thread nD τ).loc main_arg3) (ix1 j) := by
  show StableHlo.after hostOps1 (W4 m ρ c) (Proc.devRef .tc main_v27) (ix2 (0 : Fin 1) j) = _
  after_results
  rw [arg3_at4]
  exact row_apply _ shapeCasts_S128_S1x128 j

/-- The second bias as a row. -/
theorem v40_apply (j : Fin 64) :
    W7 m ρ c (Proc.devRef .tc main_v40) (ix2 (0 : Fin 1) j) = m ((c.tc : Thread nD τ).loc main_arg5) (ix1 j) := by
  show StableHlo.after hostOps2 (W6 m ρ c) (Proc.devRef .tc main_v40) (ix2 (0 : Fin 1) j) = _
  after_results
  rw [arg5_at6]
  exact row_apply _ shapeCasts_S64_S1x64 j

set_option maxHeartbeats 1000000 in
/-- The aggregation into main_v26, read at (b, j), from what the previous region's output holds. -/
theorem v26_apply (Hp' : Fin 50000 → Fin 128 → EReal)
    (hH : ∀ (r : Fin 50000) (j : Fin 128), W4 m ρ c (Proc.devRef .tc main_v15) (ix2 r j) = Hp' r j)
    (b : Fin 50000) (j : Fin 128) :
    W5 m ρ c (Proc.devRef .tc main_v26) (ix2 b j)
      = Cert.Gcn.aggK (m ((c.tc : Thread nD τ).loc main_arg1)) Hp' b j := by
  have wfS : ScatterDims.WF ⟨2, ![50000, 128]⟩ ⟨2, ![800000, 1]⟩ ⟨2, ![800000, 128]⟩ [1] [0] [0] 1 := scatter_S50000x128_S800000x1_S800000x128_1_0_0_1.wf
  have wfG : GatherDims.WF ⟨2, ![50000, 128]⟩ ⟨2, ![800000, 1]⟩ ⟨2, ![800000, 128]⟩ [1] [0] [] [0] [] 1 ![1, 128] :=
    gather_S50000x128_S800000x1_S800000x128_1_0_n_n_0_1_1128.wf
  show StableHlo.after hostOps1 (W4 m ρ c) (Proc.devRef .tc main_v26) (ix2 b j) = _
  after_results_simp
  -- name the four arrays the step is made of: the fetched rows, the destination column, the zeros, the input
  generalize hU : (Host.gather gather_S50000x128_S800000x1_S800000x128_1_0_n_n_0_1_1128 (W4 m ρ c (Proc.devRef .tc main_v15)) (broadcastInDim S800000x1 ![0] bcast_S800000_S800000x1_0 (select (cmpi .slt (W4 m ρ c (Proc.devRef .tc main_v1)) (broadcastInDim S800000 ![] bcast_S_S800000 (constantI S_ 32 0#32)))
        (addi (W4 m ρ c (Proc.devRef .tc main_v1)) (broadcastInDim S800000 ![] bcast_S_S800000 (constantI S_ 32 50000#32))) (W4 m ρ c (Proc.devRef .tc main_v1))))) = U
  generalize hI : (broadcastInDim S800000x1 ![0] bcast_S800000_S800000x1_0 (W4 m ρ c (Proc.devRef .tc main_v3))) = I
  generalize hZ : (broadcastInDim S50000x128 ![] bcast_S_S50000x128 (constant (F := Ideal) S_ .f32 0x00000000#32)) = Z
  generalize hHp : W4 m ρ c (Proc.devRef .tc main_v15) = H at hH
  exact Cert.Gcn.agg_of_reads (C := 128) wfS (m ((c.tc : Thread nD τ).loc main_arg1)) Hp' Z I U H
    (fun b k => by rw [← hZ]; exact Cert.Gcn.zeros_apply bcast_S_S50000x128 (ix2 b k))
    (fun e => by rw [← hI, Cert.Gcn.column_apply bcast_S800000_S800000x1_0, v3_at4, dst_apply])
    (fun e k => by
      rw [← hU, Cert.Gcn.fetched_apply gather_S50000x128_S800000x1_S800000x128_1_0_n_n_0_1_1128 wfG rfl (W4 m ρ c (Proc.devRef .tc main_v15)) (broadcastInDim S800000x1 ![0] bcast_S800000_S800000x1_0 (select (cmpi .slt (W4 m ρ c (Proc.devRef .tc main_v1)) (broadcastInDim S800000 ![] bcast_S_S800000 (constantI S_ 32 0#32)))
        (addi (W4 m ρ c (Proc.devRef .tc main_v1)) (broadcastInDim S800000 ![] bcast_S_S800000 (constantI S_ 32 50000#32))) (W4 m ρ c (Proc.devRef .tc main_v1))))
        (Cert.Gcn.srcW (m ((c.tc : Thread nD τ).loc main_arg1)) e) e k
        (by rw [Cert.Gcn.column_apply bcast_S800000_S800000x1_0, Cert.Gcn.wrapVec_apply bcast_S_S800000, v1_at4, src_apply]),
        hHp, hH])
    hH b j

set_option maxHeartbeats 1000000 in
/-- The aggregation into main_v39, read at (b, j), from what the previous region's output holds. -/
theorem v39_apply (Hp' : Fin 50000 → Fin 64 → EReal)
    (hH : ∀ (r : Fin 50000) (j : Fin 64), W6 m ρ c (Proc.devRef .tc main_v28) (ix2 r j) = Hp' r j)
    (b : Fin 50000) (j : Fin 64) :
    W7 m ρ c (Proc.devRef .tc main_v39) (ix2 b j)
      = Cert.Gcn.aggK (m ((c.tc : Thread nD τ).loc main_arg1)) Hp' b j := by
  have wfS : ScatterDims.WF ⟨2, ![50000, 64]⟩ ⟨2, ![800000, 1]⟩ ⟨2, ![800000, 64]⟩ [1] [0] [0] 1 := scatter_S50000x64_S800000x1_S800000x64_1_0_0_1.wf
  have wfG : GatherDims.WF ⟨2, ![50000, 64]⟩ ⟨2, ![800000, 1]⟩ ⟨2, ![800000, 64]⟩ [1] [0] [] [0] [] 1 ![1, 64] :=
    gather_S50000x64_S800000x1_S800000x64_1_0_n_n_0_1_164.wf
  show StableHlo.after hostOps2 (W6 m ρ c) (Proc.devRef .tc main_v39) (ix2 b j) = _
  after_results_simp
  -- name the four arrays the step is made of: the fetched rows, the destination column, the zeros, the input
  generalize hU : (Host.gather gather_S50000x64_S800000x1_S800000x64_1_0_n_n_0_1_164 (W6 m ρ c (Proc.devRef .tc main_v28)) (broadcastInDim S800000x1 ![0] bcast_S800000_S800000x1_0 (select (cmpi .slt (W6 m ρ c (Proc.devRef .tc main_v1)) (broadcastInDim S800000 ![] bcast_S_S800000 (constantI S_ 32 0#32)))
        (addi (W6 m ρ c (Proc.devRef .tc main_v1)) (broadcastInDim S800000 ![] bcast_S_S800000 (constantI S_ 32 50000#32))) (W6 m ρ c (Proc.devRef .tc main_v1))))) = U
  generalize hI : (broadcastInDim S800000x1 ![0] bcast_S800000_S800000x1_0 (W6 m ρ c (Proc.devRef .tc main_v3))) = I
  generalize hZ : (broadcastInDim S50000x64 ![] bcast_S_S50000x64 (constant (F := Ideal) S_ .f32 0x00000000#32)) = Z
  generalize hHp : W6 m ρ c (Proc.devRef .tc main_v28) = H at hH
  exact Cert.Gcn.agg_of_reads (C := 64) wfS (m ((c.tc : Thread nD τ).loc main_arg1)) Hp' Z I U H
    (fun b k => by rw [← hZ]; exact Cert.Gcn.zeros_apply bcast_S_S50000x64 (ix2 b k))
    (fun e => by rw [← hI, Cert.Gcn.column_apply bcast_S800000_S800000x1_0, v3_at6, dst_apply])
    (fun e k => by
      rw [← hU, Cert.Gcn.fetched_apply gather_S50000x64_S800000x1_S800000x64_1_0_n_n_0_1_164 wfG rfl (W6 m ρ c (Proc.devRef .tc main_v28)) (broadcastInDim S800000x1 ![0] bcast_S800000_S800000x1_0 (select (cmpi .slt (W6 m ρ c (Proc.devRef .tc main_v1)) (broadcastInDim S800000 ![] bcast_S_S800000 (constantI S_ 32 0#32)))
        (addi (W6 m ρ c (Proc.devRef .tc main_v1)) (broadcastInDim S800000 ![] bcast_S_S800000 (constantI S_ 32 50000#32))) (W6 m ρ c (Proc.devRef .tc main_v1))))
        (Cert.Gcn.srcW (m ((c.tc : Thread nD τ).loc main_arg1)) e) e k
        (by rw [Cert.Gcn.column_apply bcast_S800000_S800000x1_0, Cert.Gcn.wrapVec_apply bcast_S_S800000, v1_at6, src_apply]),
        hHp, hH])
    hH b j

end Cert.KernelIdeal.KHost

end
-- ==== Proof.Region0.lean ====
/- The value of the first kernel region (features times weights, each row scaled) as one function of the arrays the
   region finds, read at a row and a column: the block's matrix product as a plain sum over the 128 inner positions, the payload
   of one block at an index, each window's block as rows of its array, what a grid point writes back as a block of that
   function, the ten blocks covering the 50000 rows, and the whole array. -/
import proofs.«154043_j43155831390481_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

-- products and sums of entries are the extended reals' (an entry of `V c b` is an extended real only after its buffer's type is computed)
local notation:70 a:70 " *ₑ " b:71 => @HMul.hMul EReal EReal EReal instHMul a b
local notation:65 a:65 " +ₑ " b:66 => @HAdd.hAdd EReal EReal EReal instHAdd a b

theorem hz0 : (![0, 0] : Fin 2 → Nat) = fun _ => 0 := funext fun a => by fin_cases a <;> rfl

/-- Two functions of a rank-2 index that agree at every row and column are equal. -/
theorem funext_ix2_0 {n0 n1 : Nat} {α : Type} (f g : (⟨2, ![n0, n1]⟩ : Shape).Idx → α)
    (h : ∀ (p : Fin n0) (q : Fin n1), f (ix2 p q) = g (ix2 p q)) : f = g := by
  funext j
  rw [eq_ix2 j]
  exact h (j 0) (j 1)

/-- The dot's left operand index at output (r, c) and contraction position q keeps the row. -/
theorem lhs0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The dot's right operand index at output (r, c) and contraction position q keeps the column. -/
theorem rhs0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into the zero accumulator, at a row and a column: the plain sum over the 128 inner positions. -/
theorem matmul0_apply (a : FVec Ideal S5000x128 .bf16) (b : FVec Ideal S128x128 .bf16) (r : Fin 5000) (k : Fin 128) :
    matmul (F := Ideal) dot_S5000x128_S128x128_S5000x128_1_0_0_1_n_n none a b (constant (F := Ideal) S5000x128 .f32 0x00000000#32) (ix2 r k)
      = ∑ j : Fin 128, a (ix2 r j) * b (ix2 j k) := by
  simp only [matmul]
  rw [Ideal.matmul_constant_zero_apply, ← Equiv.sum_comp (contrEquiv1 dot_S5000x128_S128x128_S5000x128_1_0_0_1_n_n 128 rfl rfl).symm]
  refine Finset.sum_congr rfl fun j _ => ?_
  have hk := contrEquiv1_symm_val dot_S5000x128_S128x128_S5000x128_1_0_0_1_n_n 128 rfl rfl j
  have el : dot_S5000x128_S128x128_S5000x128_1_0_0_1_n_n.lhsIdx (ix2 r k) ((contrEquiv1 dot_S5000x128_S128x128_S5000x128_1_0_0_1_n_n 128 rfl rfl).symm j) = ix2 r j := funext fun a => Fin.ext (by
    match a with
    | ⟨0, _⟩ => exact lhs0_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 r k) ((contrEquiv1 dot_S5000x128_S128x128_S5000x128_1_0_0_1_n_n 128 rfl rfl).symm j) = ix2 j k := funext fun a => Fin.ext (by
    match a with
    | ⟨0, _⟩ => exact (dot_S5000x128_S128x128_S5000x128_1_0_0_1_n_n.rhsIdx_val_of_single rfl _ _).trans hk
    | ⟨1, _⟩ => exact rhs0_1 _ _)
  rw [el, er]

/-- The payload at a row and a column: the row of the features times the column of the weights, scaled by the row's factor. -/
theorem pay0_apply (x0 : Vec Ideal S5000x128 .f32) (x1 : Vec Ideal S128x128 .f32) (x2 : Vec Ideal S5000x1 .f32)
    (r : Fin 5000) (k : Fin 128) :
    k0_pay1 (F := Ideal) x0 x1 x2 (ix2 r k) = (∑ j : Fin 128, x0 (ix2 r j) * x1 (ix2 j k)) * x2 (ix2 r 0) := by
  unfold k0_pay1
  rw [mulf_apply, shapeCast_self,
    broadcastTo_apply x2 _ (ix2 r k) (ix2 r 0) (fun a => by match a with | ⟨0, _⟩ => rfl | ⟨1, _⟩ => rfl),
    matmul0_apply]
  rfl

/-- Features times weights, each row then scaled: entry (r, k) is (∑ j, x (r, j) * w (j, k)) * d r. -/
def rowScaledProduct (x : S50000x128.Idx → EReal) (w : S128x128.Idx → EReal) (d : S50000x1.Idx → EReal) : S50000x128.Idx → EReal := fun i =>
  (∑ j : Fin 128, x (ix2 (n0 := 50000) (n1 := 128) (i 0) j) * w (ix2 (n0 := 128) (n1 := 128) j (i 1)))
    * d (ix2 (n0 := 50000) (n1 := 1) (i 0) 0)

/-- The payload of blocks that are row p ↦ row R of the feature and scale arrays and the whole weight array, at (p, q),
    is the row-scaled product of the arrays at (R, q). -/
theorem pay0_at (x0 : Vec Ideal S5000x128 .f32) (x1 : Vec Ideal S128x128 .f32) (x2 : Vec Ideal S5000x1 .f32)
    (a0 : S50000x128.Idx → EReal) (a2 : S128x128.Idx → EReal) (a14 : S50000x1.Idx → EReal)
    (p : Fin 5000) (q : Fin 128) (R : Fin 50000)
    (h0 : ∀ j : Fin 128, x0 (ix2 p j) = a0 (ix2 R j)) (h1 : ∀ j : Fin 128, x1 (ix2 j q) = a2 (ix2 j q))
    (h2 : x2 (ix2 p 0) = a14 (ix2 R 0)) :
    k0_pay1 (F := Ideal) x0 x1 x2 (ix2 p q) = rowScaledProduct a0 a2 a14 (ix2 R q) := by
  rw [pay0_apply, h2, Finset.sum_congr rfl fun j _ => by rw [h0 j, h1 j]]
  rfl

/-- The printed index maps over the ten grid points: the row windows sit at block (t, 0), the weight window at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The region's result as one function of the arrays it finds, entry by entry. -/
def G0 (c : Dev nD) : S50000x128.Idx → EReal := rowScaledProduct (V c main_arg0) (V c main_arg2) (V c main_v14)

/-- Row p of point t's block of the feature array is row 5000 t + p of the array. -/
theorem iblk0_0_apply (c : Dev nD) (t : Fin cfg0.N) (p : Fin 5000) (q : Fin 128) (R : Fin 50000)
    (hR : R.val = t.val * 5000 + p.val) :
    (iblk0 (F := Ideal) V c 0 t : Vec Ideal S5000x128 .f32) (ix2 p q) = (V c main_arg0 : S50000x128.Idx → EReal) (ix2 R q) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = R.val; rw [e0, hR]; omega
  | ⟨1, _⟩ => show win0_0.index t (1 : Fin 2) * 128 + 1 * q.val = q.val; rw [e1]; omega

/-- The weight window's block is the whole weight array at every point. -/
theorem iblk0_1_apply (c : Dev nD) (t : Fin cfg0.N) (j : Fin 128) (q : Fin 128) :
    (iblk0 (F := Ideal) V c 1 t : Vec Ideal S128x128 .f32) (ix2 j q) = (V c main_arg2 : S128x128.Idx → EReal) (ix2 j q) := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t (0 : Fin 2) * 128 + 1 * j.val = j.val; rw [e2]; omega
  | ⟨1, _⟩ => show win0_1.index t (1 : Fin 2) * 128 + 1 * q.val = q.val; rw [e3]; omega

/-- Row p of point t's block of the scale column is row 5000 t + p of the column. -/
theorem iblk0_2_apply (c : Dev nD) (t : Fin cfg0.N) (p : Fin 5000) (R : Fin 50000)
    (hR : R.val = t.val * 5000 + p.val) :
    (iblk0 (F := Ideal) V c 2 t : Vec Ideal S5000x1 .f32) (ix2 p 0) = (V c main_v14 : S50000x1.Idx → EReal) (ix2 R 0) := by
  obtain ⟨-, -, -, -, e4, e5, -⟩ := idx_facts0 t
  unfold iblk0
  rw [View.read_apply]
  show V c main_v14 _ = V c main_v14 _
  congr 1
  funext a
  apply Fin.ext
  match a with
  | ⟨0, _⟩ => show win0_2.index t (0 : Fin 2) * 5000 + 1 * p.val = R.val; rw [e4, hR]; omega
  | ⟨1, _⟩ => show win0_2.index t (1 : Fin 2) * 1 + 1 * 0 = 0; rw [e5]

/-- Entry (p, q) of point t's block of the output array is entry (5000 t + p, q) of the array. -/
theorem emb0_3 (t : Fin cfg0.N) (p : Fin 5000) (q : Fin 128) (R : Fin 50000) (hR : R.val = t.val * 5000 + p.val) :
    ((cfg0.win 3).blk t).view.emb (ix2 p q) = (ix2 R q : S50000x128.Idx) := by
  obtain ⟨-, -, -, -, -, -, e6, e7⟩ := idx_facts0 t
  funext a
  apply Fin.ext
  match a with
  | ⟨0, _⟩ => show win0_3.index t (0 : Fin 2) * 5000 + 1 * p.val = R.val; rw [e6, hR]; omega
  | ⟨1, _⟩ => show win0_3.index t (1 : Fin 2) * 128 + 1 * q.val = q.val; rw [e7]; omega

/-- What point t writes back is block t of G0. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero hz0]
  simp only [View.ld_unit_zero (S := S5000x128) hz0, View.ld_unit_zero (S := S128x128) hz0, View.ld_unit_zero (S := S5000x1) hz0]
  have ht : t.val < 10 := lt_of_lt_of_eq t.isLt N_0
  refine funext_ix2_0 (n0 := 5000) (n1 := 128)
    (k0_pay1 (F := Ideal) (iblk0 (F := Ideal) V c 0 t) (iblk0 (F := Ideal) V c 1 t) (iblk0 (F := Ideal) V c 2 t))
    (((cfg0.win 3).blk t).view.read (Elt Ideal) (G0 V c)) (fun p q => ?_)
  have hp : p.val < 5000 := p.isLt
  obtain ⟨R, hR⟩ : ∃ R : Fin 50000, R.val = t.val * 5000 + p.val := ⟨⟨t.val * 5000 + p.val, by omega⟩, rfl⟩
  rw [View.read_apply, emb0_3 t p q R hR]
  exact pay0_at (iblk0 (F := Ideal) V c 0 t) (iblk0 (F := Ideal) V c 1 t) (iblk0 (F := Ideal) V c 2 t)
    (V c main_arg0) (V c main_arg2) (V c main_v14) p q R
    (fun j => iblk0_0_apply V c t p j R hR) (fun j => iblk0_1_apply V c t j q) (iblk0_2_apply V c t p R hR)

/-- An index of the output array is in point t's block iff each coordinate is in the block's range. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- Every row lies in the block of the point numbered by its quotient by 5000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, htv⟩ : ∃ t : Fin cfg0.N, t.val = (i 0).val / 5000 := ⟨⟨(i 0).val / 5000, by rw [hN]; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e6, htv]; omega
  | ⟨1, _⟩ => show win0_3.index t (1 : Fin 2) * 128 ≤ (i 1).val ∧ (i 1).val < win0_3.index t (1 : Fin 2) * 128 + 128; rw [e7]; omega

/-- The output array after the region is G0 of the arrays the region finds. -/
theorem final0 (c : Dev nD) : (dat0 (F := Ideal) V c).arrAt 3 cfg0.N = G0 V c :=
  (dat0 (F := Ideal) V c).arrAt_eq_of_cover 3 (G0 V c) (fun t _ => flushed0_eq V c t) cover0

/-- REGION 0 at a row and a column: the row of the features times the column of the weights, scaled by the row's factor. -/
theorem region0_value (c : Dev nD) (r : Fin 50000) (k : Fin 128) :
    (Gen.dat0 (F := Ideal) V c).arrAt 3 cfg0.N (ix2 r k)
      = (∑ j : Fin 128, V c main_arg0 (ix2 r j) *ₑ V c main_arg2 (ix2 j k)) *ₑ V c main_v14 (ix2 r 0) := by
  rw [final0]
  rfl

end Cert.KernelIdeal.RegionValue
end
-- ==== Proof.Region1.lean ====
/- The value of the second kernel region (rows scaled and shifted by a bias, times weights, each row scaled again) as
   one function of the arrays the region finds, read at a row and a column: the block's matrix product as a plain sum over the
   128 inner positions, the payload of one block at an index, each window's block as rows of its array, what a grid point
   writes back as a block of that function, the ten blocks covering the 50000 rows, and the whole array. -/
import proofs.«154043_j43155831390481_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

-- products and sums of entries are the extended reals' (an entry of `V c b` is an extended real only after its buffer's type is computed)
local notation:70 a:70 " *ₑ " b:71 => @HMul.hMul EReal EReal EReal instHMul a b
local notation:65 a:65 " +ₑ " b:66 => @HAdd.hAdd EReal EReal EReal instHAdd a b

theorem hz1 : (![0, 0] : Fin 2 → Nat) = fun _ => 0 := funext fun a => by fin_cases a <;> rfl

/-- Two functions of a rank-2 index that agree at every row and column are equal. -/
theorem funext_ix2_1 {n0 n1 : Nat} {α : Type} (f g : (⟨2, ![n0, n1]⟩ : Shape).Idx → α)
    (h : ∀ (p : Fin n0) (q : Fin n1), f (ix2 p q) = g (ix2 p q)) : f = g := by
  funext j
  rw [eq_ix2 j]
  exact h (j 0) (j 1)

/-- The dot's left operand index at output (r, c) and contraction position q keeps the row. -/
theorem lhs1_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The dot's right operand index at output (r, c) and contraction position q keeps the column. -/
theorem rhs1_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block's matrix product into the zero accumulator, at a row and a column: the plain sum over the 128 inner positions. -/
theorem matmul1_apply (a : FVec Ideal S5000x128 .bf16) (b : FVec Ideal S128x64 .bf16) (r : Fin 5000) (k : Fin 64) :
    matmul (F := Ideal) dot_S5000x128_S128x64_S5000x64_1_0_0_1_n_n none a b (constant (F := Ideal) S5000x64 .f32 0x00000000#32) (ix2 r k)
      = ∑ j : Fin 128, a (ix2 r j) * b (ix2 j k) := by
  simp only [matmul]
  rw [Ideal.matmul_constant_zero_apply, ← Equiv.sum_comp (contrEquiv1 dot_S5000x128_S128x64_S5000x64_1_0_0_1_n_n 128 rfl rfl).symm]
  refine Finset.sum_congr rfl fun j _ => ?_
  have hk := contrEquiv1_symm_val dot_S5000x128_S128x64_S5000x64_1_0_0_1_n_n 128 rfl rfl j
  have el : dot_S5000x128_S128x64_S5000x64_1_0_0_1_n_n.lhsIdx (ix2 r k) ((contrEquiv1 dot_S5000x128_S128x64_S5000x64_1_0_0_1_n_n 128 rfl rfl).symm j) = ix2 r j := funext fun a => Fin.ext (by
    match a with
    | ⟨0, _⟩ => exact lhs1_0 _ _
    | ⟨1, _⟩ => exact (dot_S5000x128_S128x64_S5000x64_1_0_0_1_n_n.lhsIdx_val_of_single rfl _ _).trans hk)
  have er : dot_S5000x128_S128x64_S5000x64_1_0_0_1_n_n.rhsIdx (ix2 r k) ((contrEquiv1 dot_S5000x128_S128x64_S5000x64_1_0_0_1_n_n 128 rfl rfl).symm j) = ix2 j k := funext fun a => Fin.ext (by
    match a with
    | ⟨0, _⟩ => exact (dot_S5000x128_S128x64_S5000x64_1_0_0_1_n_n.rhsIdx_val_of_single rfl _ _).trans hk
    | ⟨1, _⟩ => exact rhs1_1 _ _)
  rw [el, er]

/-- The payload at a row and a column: the row, scaled and shifted by the bias, times the column of the weights, scaled
    by the row's factor again. -/
theorem pay1_apply (v0 : Vec Ideal S5000x1 .f32) (v2 : Vec Ideal S5000x128 .f32) (v6 : Vec Ideal S1x128 .f32)
    (v11 : Vec Ideal S128x64 .f32) (v14 : Vec Ideal S5000x1 .f32) (r : Fin 5000) (k : Fin 64) :
    k1_pay1 (F := Ideal) v0 v2 v6 v11 v14 (ix2 r k)
      = (∑ j : Fin 128, (v0 (ix2 r 0) * v2 (ix2 r j) + v6 (ix2 0 j)) * v11 (ix2 j k)) * v14 (ix2 r 0) := by
  unfold k1_pay1
  rw [mulf_apply, matmul1_apply]
  simp only [shapeCast_self, truncf_apply, addf_apply, mulf_apply]
  rw [broadcastTo_apply v14 _ (ix2 r k) (ix2 r 0) (fun a => by match a with | ⟨0, _⟩ => rfl | ⟨1, _⟩ => rfl)]
  refine congrArg (· * v14 (ix2 r 0)) (Finset.sum_congr rfl fun j _ => ?_)
  rw [broadcastTo_apply v0 _ (ix2 r j) (ix2 r 0) (fun a => by match a with | ⟨0, _⟩ => rfl | ⟨1, _⟩ => rfl),
    broadcastTo_apply v6 _ (ix2 r j) (ix2 0 j) (fun a => by match a with | ⟨0, _⟩ => rfl | ⟨1, _⟩ => rfl)]

/-- Rows scaled and shifted, times weights, each row scaled again:
    entry (r, k) is (∑ j, (d r * a (r, j) + b j) * w (j, k)) * d r. -/
def affineProductScaled (a : S50000x128.Idx → EReal) (d : S50000x1.Idx → EReal) (b : S1x128.Idx → EReal) (w : S128x64.Idx → EReal) :
    S50000x64.Idx → EReal := fun i =>
  (∑ j : Fin 128, (d (ix2 (n0 := 50000) (n1 := 1) (i 0) 0) * a (ix2 (n0 := 50000) (n1 := 128) (i 0) j)
      + b (ix2 (n0 := 1) (n1 := 128) 0 j)) * w (ix2 (n0 := 128) (n1 := 64) j (i 1)))
    * d (ix2 (n0 := 50000) (n1 := 1) (i 0) 0)

/-- The payload of blocks that are row p ↦ row R of the aggregated and scale arrays and the whole bias and weight arrays,
    at (p, q), is that function of the arrays at (R, q). -/
theorem pay1_at (x0 : Vec Ideal S5000x128 .f32) (x1 : Vec Ideal S5000x1 .f32) (x2 : Vec Ideal S1x128 .f32) (x3 : Vec Ideal S128x64 .f32)
    (a26 : S50000x128.Idx → EReal) (a14 : S50000x1.Idx → EReal) (a27 : S1x128.Idx → EReal) (a4 : S128x64.Idx → EReal)
    (p : Fin 5000) (q : Fin 64) (R : Fin 50000)
    (h0 : ∀ j : Fin 128, x0 (ix2 p j) = a26 (ix2 R j)) (h1 : x1 (ix2 p 0) = a14 (ix2 R 0))
    (h2 : ∀ j : Fin 128, x2 (ix2 0 j) = a27 (ix2 0 j)) (h3 : ∀ j : Fin 128, x3 (ix2 j q) = a4 (ix2 j q)) :
    k1_pay1 (F := Ideal) x1 x0 x2 x3 x1 (ix2 p q) = affineProductScaled a26 a14 a27 a4 (ix2 R q) := by
  rw [pay1_apply, h1, Finset.sum_congr rfl fun j _ => by rw [h0 j, h2 j, h3 j]]
  rfl

/-- The printed index maps over the ten grid points: the row windows sit at block (t, 0), the bias and weight windows at (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The region's result as one function of the arrays it finds, entry by entry. -/
def G1 (c : Dev nD) : S50000x64.Idx → EReal :=
  affineProductScaled (V c main_v26) (V c main_v14) (V c main_v27) (V c main_arg4)

/-- Row p of point t's block of the aggregated array is row 5000 t + p of the array. -/
theorem iblk1_0_apply (c : Dev nD) (t : Fin cfg1.N) (p : Fin 5000) (q : Fin 128) (R : Fin 50000)
    (hR : R.val = t.val * 5000 + p.val) :
    (iblk1 (F := Ideal) V c 0 t : Vec Ideal S5000x128 .f32) (ix2 p q) = (V c main_v26 : S50000x128.Idx → EReal) (ix2 R q) := by
  obtain ⟨e0, e1, -⟩ := idx_facts1 t
  unfold iblk1
  rw [View.read_apply]
  show V c main_v26 _ = V c main_v26 _
  congr 1
  funext a
  apply Fin.ext
  match a with
  | ⟨0, _⟩ => show win1_0.index t (0 : Fin 2) * 5000 + 1 * p.val = R.val; rw [e0, hR]; omega
  | ⟨1, _⟩ => show win1_0.index t (1 : Fin 2) * 128 + 1 * q.val = q.val; rw [e1]; omega

/-- Row p of point t's block of the scale column is row 5000 t + p of the column. -/
theorem iblk1_1_apply (c : Dev nD) (t : Fin cfg1.N) (p : Fin 5000) (R : Fin 50000)
    (hR : R.val = t.val * 5000 + p.val) :
    (iblk1 (F := Ideal) V c 1 t : Vec Ideal S5000x1 .f32) (ix2 p 0) = (V c main_v14 : S50000x1.Idx → EReal) (ix2 R 0) := by
  obtain ⟨-, -, e2, e3, -⟩ := idx_facts1 t
  unfold iblk1
  rw [View.read_apply]
  show V c main_v14 _ = V c main_v14 _
  congr 1
  funext a
  apply Fin.ext
  match a with
  | ⟨0, _⟩ => show win1_1.index t (0 : Fin 2) * 5000 + 1 * p.val = R.val; rw [e2, hR]; omega
  | ⟨1, _⟩ => show win1_1.index t (1 : Fin 2) * 1 + 1 * 0 = 0; rw [e3]

/-- The bias window's block is the whole bias row at every point. -/
theorem iblk1_2_apply (c : Dev nD) (t : Fin cfg1.N) (q : Fin 128) :
    (iblk1 (F := Ideal) V c 2 t : Vec Ideal S1x128 .f32) (ix2 0 q) = (V c main_v27 : S1x128.Idx → EReal) (ix2 0 q) := by
  obtain ⟨-, -, -, -, e4, e5, -⟩ := idx_facts1 t
  unfold iblk1
  rw [View.read_apply]
  show V c main_v27 _ = V c main_v27 _
  congr 1
  funext a
  apply Fin.ext
  match a with
  | ⟨0, _⟩ => show win1_2.index t (0 : Fin 2) * 1 + 1 * 0 = 0; rw [e4]
  | ⟨1, _⟩ => show win1_2.index t (1 : Fin 2) * 128 + 1 * q.val = q.val; rw [e5]; omega

/-- The weight window's block is the whole weight array at every point. -/
theorem iblk1_3_apply (c : Dev nD) (t : Fin cfg1.N) (j : Fin 128) (q : Fin 64) :
    (iblk1 (F := Ideal) V c 3 t : Vec Ideal S128x64 .f32) (ix2 j q) = (V c main_arg4 : S128x64.Idx → EReal) (ix2 j q) := by
  obtain ⟨-, -, -, -, -, -, e6, e7, -⟩ := idx_facts1 t
  unfold iblk1
  rw [View.read_apply]
  show V c main_arg4 _ = V c main_arg4 _
  congr 1
  funext a
  apply Fin.ext
  match a with
  | ⟨0, _⟩ => show win1_3.index t (0 : Fin 2) * 128 + 1 * j.val = j.val; rw [e6]; omega
  | ⟨1, _⟩ => show win1_3.index t (1 : Fin 2) * 64 + 1 * q.val = q.val; rw [e7]; omega

/-- Entry (p, q) of point t's block of the output array is entry (5000 t + p, q) of the array. -/
theorem emb1_4 (t : Fin cfg1.N) (p : Fin 5000) (q : Fin 64) (R : Fin 50000) (hR : R.val = t.val * 5000 + p.val) :
    ((cfg1.win 4).blk t).view.emb (ix2 p q) = (ix2 R q : S50000x64.Idx) := by
  obtain ⟨-, -, -, -, -, -, -, -, e8, e9⟩ := idx_facts1 t
  funext a
  apply Fin.ext
  match a with
  | ⟨0, _⟩ => show win1_4.index t (0 : Fin 2) * 5000 + 1 * p.val = R.val; rw [e8, hR]; omega
  | ⟨1, _⟩ => show win1_4.index t (1 : Fin 2) * 64 + 1 * q.val = q.val; rw [e9]; omega

/-- What point t writes back is block t of G1. -/
theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 (F := Ideal) V c).after 4 t) = _
  rw [after1_4]
  unfold out1_4
  rw [View.canon_unit_zero hz1]
  simp only [View.ld_unit_zero (S := S5000x128) hz1, View.ld_unit_zero (S := S5000x1) hz1, View.ld_unit_zero (S := S1x128) hz1,
    View.ld_unit_zero (S := S128x64) hz1]
  have ht : t.val < 10 := lt_of_lt_of_eq t.isLt N_1
  refine funext_ix2_1 (n0 := 5000) (n1 := 64)
    (k1_pay1 (F := Ideal) (iblk1 (F := Ideal) V c 1 t) (iblk1 (F := Ideal) V c 0 t) (iblk1 (F := Ideal) V c 2 t)
      (iblk1 (F := Ideal) V c 3 t) (iblk1 (F := Ideal) V c 1 t))
    (((cfg1.win 4).blk t).view.read (Elt Ideal) (G1 V c)) (fun p q => ?_)
  have hp : p.val < 5000 := p.isLt
  obtain ⟨R, hR⟩ : ∃ R : Fin 50000, R.val = t.val * 5000 + p.val := ⟨⟨t.val * 5000 + p.val, by omega⟩, rfl⟩
  rw [View.read_apply, emb1_4 t p q R hR]
  exact pay1_at (iblk1 (F := Ideal) V c 0 t) (iblk1 (F := Ideal) V c 1 t) (iblk1 (F := Ideal) V c 2 t) (iblk1 (F := Ideal) V c 3 t)
    (V c main_v26) (V c main_v14) (V c main_v27) (V c main_arg4) p q R
    (fun j => iblk1_0_apply V c t p j R hR) (iblk1_1_apply V c t p R hR) (fun j => iblk1_2_apply V c t j)
    (fun j => iblk1_3_apply V c t j q)

/-- An index of the output array is in point t's block iff each coordinate is in the block's range. -/
theorem mem_blk1 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v28).slice (win1_4.rect t)).set ↔ _
  rw [View.set_slice_whole, Rect.mem_set_unit]
  exact Iff.rfl

/-- Every row lies in the block of the point numbered by its quotient by 5000. -/
theorem cover1 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  obtain ⟨t, htv⟩ : ∃ t : Fin cfg1.N, t.val = (i 0).val / 5000 := ⟨⟨(i 0).val / 5000, by rw [hN]; omega⟩, rfl⟩
  obtain ⟨-, -, -, -, -, -, -, -, e8, e9⟩ := idx_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; rw [e8, htv]; omega
  | ⟨1, _⟩ => show win1_4.index t (1 : Fin 2) * 64 ≤ (i 1).val ∧ (i 1).val < win1_4.index t (1 : Fin 2) * 64 + 64; rw [e9]; omega

/-- The output array after the region is G1 of the arrays the region finds. -/
theorem final1 (c : Dev nD) : (dat1 (F := Ideal) V c).arrAt 4 cfg1.N = G1 V c :=
  (dat1 (F := Ideal) V c).arrAt_eq_of_cover 4 (G1 V c) (fun t _ => flushed1_eq V c t) cover1

/-- REGION 1 at a row and a column: the row of the aggregated array, scaled by the row's factor and shifted by the bias,
    times the column of the weights, scaled by the row's factor again. -/
theorem region1_value (c : Dev nD) (r : Fin 50000) (k : Fin 64) :
    (Gen.dat1 (F := Ideal) V c).arrAt 4 cfg1.N (ix2 r k)
      = (∑ j : Fin 128, (V c main_v14 (ix2 r 0) *ₑ V c main_v26 (ix2 r j) +ₑ V c main_v27 (ix2 0 j)) *ₑ V c main_arg4 (ix2 j k))
          *ₑ V c main_v14 (ix2 r 0) := by
  rw [final1]
  rfl

end Cert.KernelIdeal.RegionValue
end
-- ==== Proof.Region2.lean ====
/- The value of the third kernel region (rows scaled, a row of biases added) as one function of the arrays the
   region finds, read at a row and a column: the payload of one block at an index, each window's block as rows of its array,
   what a grid point writes back as a block of that function, the ten blocks covering the 50000 rows, and the whole array. -/
import proofs.«154043_j43155831390481_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

-- products and sums of entries are the extended reals' (an entry of `V c b` is an extended real only after its buffer's type is computed)
local notation:70 a:70 " *ₑ " b:71 => @HMul.hMul EReal EReal EReal instHMul a b
local notation:65 a:65 " +ₑ " b:66 => @HAdd.hAdd EReal EReal EReal instHAdd a b

theorem hz2 : (![0, 0] : Fin 2 → Nat) = fun _ => 0 := funext fun a => by fin_cases a <;> rfl

/-- The affine payload at a row and a column: the row's scale times the entry, plus the column's bias. -/
theorem pay2_apply (x0 : Vec Ideal S5000x1 .f32) (x1 : Vec Ideal S5000x64 .f32) (x2 : Vec Ideal S1x64 .f32)
    (r : Fin 5000) (k : Fin 64) :
    k2_pay1 (F := Ideal) x0 x1 x2 (ix2 r k) = x0 (ix2 r 0) * x1 (ix2 r k) + x2 (ix2 0 k) := by
  unfold k2_pay1
  rw [addf_apply, mulf_apply, shapeCast_self, shapeCast_self, shapeCast_self]
  rw [broadcastTo_apply x0 _ (ix2 r k) (ix2 r 0) (fun a => by match a with | ⟨0, _⟩ => rfl | ⟨1, _⟩ => rfl),
    broadcastTo_apply x2 _ (ix2 r k) (ix2 0 k) (fun a => by match a with | ⟨0, _⟩ => rfl | ⟨1, _⟩ => rfl)]

/-- A payload that agrees entry by entry with a function of the block index is that function. -/
theorem pay2_eq (x0 : Vec Ideal S5000x1 .f32) (x1 : Vec Ideal S5000x64 .f32) (x2 : Vec Ideal S1x64 .f32)
    (G : S5000x64.Idx → EReal)
    (h : ∀ (p : Fin 5000) (q : Fin 64), x0 (ix2 p 0) * x1 (ix2 p q) + x2 (ix2 0 q) = G (ix2 p q)) :
    k2_pay1 (F := Ideal) x0 x1 x2 = G := by
  funext j
  obtain ⟨p, q, rfl⟩ : ∃ (p : Fin 5000) (q : Fin 64), j = ix2 p q := ⟨j 0, j 1, eq_ix2 j⟩
  rw [pay2_apply]
  exact h p q

/-- The printed index maps over the ten grid points: the row windows sit at block (t, 0), the bias window at (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Rows scaled by a column, then a row of biases added: entry (r, k) is d r * a (r, k) + b k. -/
def affineRows (d : S50000x1.Idx → EReal) (a : S50000x64.Idx → EReal) (b : S1x64.Idx → EReal) : S50000x64.Idx → EReal := fun i =>
  d (ix2 (n0 := 50000) (n1 := 1) (i 0) 0) * a i + b (ix2 (n0 := 1) (n1 := 64) 0 (i 1))

/-- The region's result as one function of the arrays it finds, entry by entry. -/
def G2 (c : Dev nD) : S50000x64.Idx → EReal := affineRows (V c main_v14) (V c main_v39) (V c main_v40)

/-- Row p of point t's block of the aggregated array is row 5000 t + p of the array. -/
theorem iblk2_0_apply (c : Dev nD) (t : Fin cfg2.N) (p : Fin 5000) (q : Fin 64) (R : Fin 50000)
    (hR : R.val = t.val * 5000 + p.val) :
    (iblk2 (F := Ideal) V c 0 t : Vec Ideal S5000x64 .f32) (ix2 p q) = (V c main_v39 : S50000x64.Idx → EReal) (ix2 R q) := by
  obtain ⟨e0, e1, -⟩ := idx_facts2 t
  unfold iblk2
  rw [View.read_apply]
  show V c main_v39 _ = V c main_v39 _
  congr 1
  funext a
  apply Fin.ext
  match a with
  | ⟨0, _⟩ => show win2_0.index t (0 : Fin 2) * 5000 + 1 * p.val = R.val; rw [e0, hR]; omega
  | ⟨1, _⟩ => show win2_0.index t (1 : Fin 2) * 64 + 1 * q.val = q.val; rw [e1]; omega

/-- Row p of point t's block of the scale column is row 5000 t + p of the column. -/
theorem iblk2_1_apply (c : Dev nD) (t : Fin cfg2.N) (p : Fin 5000) (R : Fin 50000)
    (hR : R.val = t.val * 5000 + p.val) :
    (iblk2 (F := Ideal) V c 1 t : Vec Ideal S5000x1 .f32) (ix2 p 0) = (V c main_v14 : S50000x1.Idx → EReal) (ix2 R 0) := by
  obtain ⟨-, -, e2, e3, -⟩ := idx_facts2 t
  unfold iblk2
  rw [View.read_apply]
  show V c main_v14 _ = V c main_v14 _
  congr 1
  funext a
  apply Fin.ext
  match a with
  | ⟨0, _⟩ => show win2_1.index t (0 : Fin 2) * 5000 + 1 * p.val = R.val; rw [e2, hR]; omega
  | ⟨1, _⟩ => show win2_1.index t (1 : Fin 2) * 1 + 1 * 0 = 0; rw [e3]

/-- The bias window's block is the whole bias row at every point. -/
theorem iblk2_2_apply (c : Dev nD) (t : Fin cfg2.N) (q : Fin 64) :
    (iblk2 (F := Ideal) V c 2 t : Vec Ideal S1x64 .f32) (ix2 0 q) = (V c main_v40 : S1x64.Idx → EReal) (ix2 0 q) := by
  obtain ⟨-, -, -, -, e4, e5, -⟩ := idx_facts2 t
  unfold iblk2
  rw [View.read_apply]
  show V c main_v40 _ = V c main_v40 _
  congr 1
  funext a
  apply Fin.ext
  match a with
  | ⟨0, _⟩ => show win2_2.index t (0 : Fin 2) * 1 + 1 * 0 = 0; rw [e4]
  | ⟨1, _⟩ => show win2_2.index t (1 : Fin 2) * 64 + 1 * q.val = q.val; rw [e5]; omega

/-- Entry (p, q) of point t's block of the output array is entry (5000 t + p, q) of the array. -/
theorem emb2_3 (t : Fin cfg2.N) (p : Fin 5000) (q : Fin 64) (R : Fin 50000) (hR : R.val = t.val * 5000 + p.val) :
    ((cfg2.win 3).blk t).view.emb (ix2 p q) = (ix2 R q : S50000x64.Idx) := by
  obtain ⟨-, -, -, -, -, -, e6, e7⟩ := idx_facts2 t
  funext a
  apply Fin.ext
  match a with
  | ⟨0, _⟩ => show win2_3.index t (0 : Fin 2) * 5000 + 1 * p.val = R.val; rw [e6, hR]; omega
  | ⟨1, _⟩ => show win2_3.index t (1 : Fin 2) * 64 + 1 * q.val = q.val; rw [e7]; omega

/-- What point t writes back is block t of G2. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2_3
  rw [View.canon_unit_zero hz2]
  simp only [View.ld_unit_zero (S := S5000x1) hz2, View.ld_unit_zero (S := S5000x64) hz2, View.ld_unit_zero (S := S1x64) hz2]
  have ht : t.val < 10 := lt_of_lt_of_eq t.isLt N_2
  refine pay2_eq (iblk2 (F := Ideal) V c 1 t) (iblk2 (F := Ideal) V c 0 t) (iblk2 (F := Ideal) V c 2 t)
    (((cfg2.win 3).blk t).view.read (Elt Ideal) (G2 V c)) (fun p q => ?_)
  have hp : p.val < 5000 := p.isLt
  rw [iblk2_1_apply V c t p ⟨t.val * 5000 + p.val, by omega⟩ rfl, iblk2_0_apply V c t p q ⟨t.val * 5000 + p.val, by omega⟩ rfl,
    iblk2_2_apply V c t q, View.read_apply, emb2_3 t p q ⟨t.val * 5000 + p.val, by omega⟩ rfl]
  rfl

/-- An index of the output array is in point t's block iff each coordinate is in the block's range. -/
theorem mem_blk2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v41).slice (win2_3.rect t)).set ↔ _
  rw [View.set_slice_whole, Rect.mem_set_unit]
  exact Iff.rfl

/-- Every row lies in the block of the point numbered by its quotient by 5000. -/
theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  obtain ⟨t, htv⟩ : ∃ t : Fin cfg2.N, t.val = (i 0).val / 5000 := ⟨⟨(i 0).val / 5000, by rw [hN]; omega⟩, rfl⟩
  obtain ⟨-, -, -, -, -, -, e6, e7⟩ := idx_facts2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; rw [e6, htv]; omega
  | ⟨1, _⟩ => show win2_3.index t (1 : Fin 2) * 64 ≤ (i 1).val ∧ (i 1).val < win2_3.index t (1 : Fin 2) * 64 + 64; rw [e7]; omega

/-- The output array after the region is G2 of the arrays the region finds. -/
theorem final2 (c : Dev nD) : (dat2 (F := Ideal) V c).arrAt 3 cfg2.N = G2 V c :=
  (dat2 (F := Ideal) V c).arrAt_eq_of_cover 3 (G2 V c) (fun t _ => flushed2_eq V c t) cover2

/-- REGION 2 at a row and a column: the row's scale times the aggregated entry, plus the column's bias. -/
theorem region2_value (c : Dev nD) (r : Fin 50000) (k : Fin 64) :
    (Gen.dat2 (F := Ideal) V c).arrAt 3 cfg2.N (ix2 r k)
      = V c main_v14 (ix2 r 0) *ₑ V c main_v39 (ix2 r k) +ₑ V c main_v40 (ix2 0 k) := by
  rw [final2]
  rfl

end Cert.KernelIdeal.RegionValue
end
-- ==== Proof.LibIndexWords.lean ====
/-
  Small facts about 32-bit index words, for a natural number `v` below `2^31` written as the word `BitVec.ofNat 32 v`.
  No program is imported.

  * `wrap_word`: the "wrap a negative index" select (`if x < 0 then x + n else x`, signed) leaves such a word alone.
  * `clamp_word`: reading such a word signed and clamping it into `[0, N − 1]` gives `v` back when `v < N ≤ 2^31`.
  * `floorDiv2_word`: the chain jax prints for the floor division `x // 2` of signed integers — the quotient rounded
    toward zero, minus one where the signs of dividend and divisor differ and the remainder is not zero — is, on such
    a word, the word of `v / 2`.  `floorDiv2_apply` is the same chain of vector operations read at one index of any
    shape (the divisor and the constants `0`, `1` broadcast from rank-0 tables), and `tokTable_apply` the closed
    term over the table `0, 1, …, 32767`: its entry `i` is the word of `i / 2`.
  * `iotaInDim_ix1`: the rank-1 iota table at coordinate `i` is the word of `i`.
-/
import Idealize.ShloMosaic.PureOps
import Idealize.ShloMosaic.Lib.ValueIdx

noncomputable section

namespace Cert.Moe

open Idealize.ShloMosaic Idealize.ShloMosaic.ValueIdx

/-! ## The word of a natural below `2^31` -/

/-- Its unsigned value is the natural. -/
theorem idxWord_toNat (v : Nat) (hv : v < 2 ^ 31) : (BitVec.ofNat 32 v).toNat = v := by
  rw [BitVec.toNat_ofNat]; exact Nat.mod_eq_of_lt (by omega)

/-- Its sign bit is clear. -/
theorem idxWord_msb (v : Nat) (hv : v < 2 ^ 31) : (BitVec.ofNat 32 v).msb = false :=
  BitVec.msb_eq_false_iff_two_mul_lt.mpr (by rw [idxWord_toNat v hv]; omega)

/-- Its signed value is the natural. -/
theorem idxWord_toInt (v : Nat) (hv : v < 2 ^ 31) : (BitVec.ofNat 32 v).toInt = (v : Int) := by
  rw [BitVec.toInt_eq_toNat_of_lt (by rw [idxWord_toNat v hv]; omega), idxWord_toNat v hv]

/-- It is the zero word only for `v = 0`. -/
theorem idxWord_ne_zero (v : Nat) (hv : v < 2 ^ 31) (h0 : v ≠ 0) : BitVec.ofNat 32 v ≠ 0 := by
  intro h
  have := congrArg BitVec.toNat h
  rw [idxWord_toNat v hv] at this
  exact h0 this

/-! ## Wrapping and clamping -/

/-- The wrap of a possibly negative index, `if x < 0 then x + n else x` (signed), leaves a non-negative word alone. -/
theorem wrap_word (n : BitVec 32) (v : Nat) (hv : v < 2 ^ 31) :
    Scalar.select (IntOp.cmpi .slt (BitVec.ofNat 32 v) 0#32) (IntOp.addi (BitVec.ofNat 32 v) n) (BitVec.ofNat 32 v)
      = BitVec.ofNat 32 v := by
  have h : IntOp.cmpi .slt (BitVec.ofNat 32 v) 0#32 = 0#1 := by
    show BitVec.ofBool ((BitVec.ofNat 32 v).slt 0#32) = 0#1
    have hlt : ¬ ((v : Int) < 0) := by omega
    rw [BitVec.slt_eq_decide, idxWord_toInt v hv, BitVec.toInt_zero, decide_eq_false hlt]
    rfl
  rw [h, select_zero]

/-- A word below `N ≤ 2^31`, read signed and clamped into `[0, N − 1]`, is its natural. -/
theorem clamp_word (v N : Nat) (hv : v < N) (hN : N ≤ 2 ^ 31) : min (BitVec.ofNat 32 v).toInt.toNat (N - 1) = v := by
  rw [idxWord_toInt v (by omega), Int.toNat_natCast]
  omega

/-! ## Floor division by two -/

/-- The sign of a word as a word (`-1`, `0` or `1`): what `signi` computes at each index. -/
def signWord {w : Nat} (x : BitVec w) : BitVec w := if x = 0 then 0 else if x.msb then -1 else 1

/-- `signi` at an index is the sign of the element. -/
theorem signi_apply {s : Shape} {w : Nat} (x : IVec s w) (i : s.Idx) : signi x i = signWord (x i) := rfl

/-- The sign of the word of a positive natural below `2^31` is `1`. -/
theorem signWord_pos (v : Nat) (hv : v < 2 ^ 31) (h0 : v ≠ 0) : signWord (BitVec.ofNat 32 v) = 1 := by
  unfold signWord
  rw [if_neg (idxWord_ne_zero v hv h0), idxWord_msb v hv]
  rfl

/-- Dividing by the word `2` is not a corner of signed division. -/
theorem not_sdivCorner_two (x : BitVec 32) : ¬ IntOp.SDivCorner x 2#32 := by
  unfold IntOp.SDivCorner
  rintro (h | ⟨_, h⟩)
  · exact idxWord_ne_zero 2 (by norm_num) (by norm_num) h
  · have := congrArg BitVec.toNat h
    simp at this

/-- The signed quotient by `2` of the word of `v` is the word of `v / 2`. -/
theorem divsi_two (u : ArithUnit) (v : Nat) (hv : v < 2 ^ 31) :
    IntOp.divsi u (BitVec.ofNat 32 v) 2#32 = BitVec.ofNat 32 (v / 2) := by
  unfold IntOp.divsi
  rw [if_neg (not_sdivCorner_two _), BitVec.sdiv_eq, idxWord_msb v hv, idxWord_msb 2 (by norm_num)]
  show (BitVec.ofNat 32 v) / 2#32 = _
  apply BitVec.eq_of_toNat_eq
  rw [BitVec.toNat_udiv, idxWord_toNat v hv, idxWord_toNat 2 (by norm_num), idxWord_toNat (v / 2) (by omega)]

/-- The signed remainder by `2` of the zero word is the zero word. -/
theorem remsi_zero_two (u : ArithUnit) : IntOp.remsi u (0#32) 2#32 = 0#32 := by
  unfold IntOp.remsi
  rw [if_neg (not_sdivCorner_two _), BitVec.zero_srem]

/-- jax's floor division by two on the word of a natural `v < 2^31`: the quotient rounded toward zero, less one
    where the signs of `x` and `2` differ and the remainder is not zero, is the word of `v / 2`.  (For `v > 0` the
    signs agree; for `v = 0` the remainder is zero: the correction never applies.) -/
theorem floorDiv2_word (u : ArithUnit) (v : Nat) (hv : v < 2 ^ 31) :
    Scalar.select
        (IntOp.andi (IntOp.cmpi .ne (signWord (BitVec.ofNat 32 v)) (signWord 2#32))
          (IntOp.cmpi .ne (IntOp.remsi u (BitVec.ofNat 32 v) 2#32) 0#32))
        (IntOp.subi (IntOp.divsi u (BitVec.ofNat 32 v) 2#32) 1#32)
        (IntOp.divsi u (BitVec.ofNat 32 v) 2#32)
      = BitVec.ofNat 32 (v / 2) := by
  have hc : IntOp.andi (IntOp.cmpi .ne (signWord (BitVec.ofNat 32 v)) (signWord 2#32))
      (IntOp.cmpi .ne (IntOp.remsi u (BitVec.ofNat 32 v) 2#32) 0#32) = 0#1 := by
    by_cases h0 : v = 0
    · subst h0
      have : IntOp.cmpi .ne (IntOp.remsi u (BitVec.ofNat 32 0) 2#32) 0#32 = 0#1 := by
        rw [show BitVec.ofNat 32 0 = 0#32 from rfl, remsi_zero_two]
        rfl
      rw [this]
      exact BitVec.and_zero
    · have : IntOp.cmpi .ne (signWord (BitVec.ofNat 32 v)) (signWord 2#32) = 0#1 := by
        rw [signWord_pos v hv h0, signWord_pos 2 (by norm_num) (by norm_num)]
        rfl
      rw [this]
      exact BitVec.zero_and
  rw [hc, select_zero, divsi_two u v hv]

/-! ## The same chain of vector operations, read at an index -/

/-- The rank-1 iota table at coordinate `i` is the word of `i`. -/
theorem iotaInDim_ix1 {n : Nat} (w : Nat) (i : Fin n) : iotaInDim ⟨1, ![n]⟩ w 0 (ix1 i) = BitVec.ofNat w i.val := rfl

/-- A rank-0 constant table broadcast to any shape reads the constant everywhere. -/
theorem broadcastInDim_constantI {t : Shape} (dims : Fin (⟨0, ![]⟩ : Shape).rank → Fin t.rank)
    (hb : (⟨0, ![]⟩ : Shape).BroadcastsInDim t dims) (w : Nat) (b : BitVec w) (j : t.Idx) :
    broadcastInDim t dims hb (constantI ⟨0, ![]⟩ w b) j = b := rfl

/-- The floor-division-by-two chain over any table `x`, the divisor `2` and the constants `0`, `1` being rank-0
    constant tables broadcast to the shape, read at an index where `x` holds the word of a natural `v < 2^31`. -/
theorem floorDiv2_apply {t : Shape} (dims : Fin (⟨0, ![]⟩ : Shape).rank → Fin t.rank)
    (hb : (⟨0, ![]⟩ : Shape).BroadcastsInDim t dims) (x : IVec t 32) (j : t.Idx) (v : Nat) (hv : v < 2 ^ 31)
    (hx : x j = BitVec.ofNat 32 v) :
    select
        (andi (cmpi .ne (signi x) (broadcastInDim t dims hb (signi (constantI ⟨0, ![]⟩ 32 2#32))))
          (cmpi .ne (Host.remsi x (broadcastInDim t dims hb (constantI ⟨0, ![]⟩ 32 2#32)))
            (broadcastInDim t dims hb (constantI ⟨0, ![]⟩ 32 0#32))))
        (subi (Host.divsi x (broadcastInDim t dims hb (constantI ⟨0, ![]⟩ 32 2#32)))
          (broadcastInDim t dims hb (constantI ⟨0, ![]⟩ 32 1#32)))
        (Host.divsi x (broadcastInDim t dims hb (constantI ⟨0, ![]⟩ 32 2#32))) j
      = BitVec.ofNat 32 (v / 2) := by
  show Scalar.select
        (IntOp.andi (IntOp.cmpi .ne (signWord (x j)) (signWord 2#32))
          (IntOp.cmpi .ne (IntOp.remsi .host (x j) 2#32) 0#32))
        (IntOp.subi (IntOp.divsi .host (x j) 2#32) 1#32)
        (IntOp.divsi .host (x j) 2#32) = _
  rw [hx]
  exact floorDiv2_word .host v hv

/-- The table jax prints for `iota // 2` over 32768 positions: entry `i` is the word of `i / 2`. -/
theorem tokTable_apply (hb : (⟨0, ![]⟩ : Shape).BroadcastsInDim ⟨1, ![32768]⟩ ![]) (i : Fin 32768) :
    select
        (andi (cmpi .ne (signi (iotaInDim ⟨1, ![32768]⟩ 32 0))
            (broadcastInDim ⟨1, ![32768]⟩ ![] hb (signi (constantI ⟨0, ![]⟩ 32 2#32))))
          (cmpi .ne (Host.remsi (iotaInDim ⟨1, ![32768]⟩ 32 0) (broadcastInDim ⟨1, ![32768]⟩ ![] hb (constantI ⟨0, ![]⟩ 32 2#32)))
            (broadcastInDim ⟨1, ![32768]⟩ ![] hb (constantI ⟨0, ![]⟩ 32 0#32))))
        (subi (Host.divsi (iotaInDim ⟨1, ![32768]⟩ 32 0) (broadcastInDim ⟨1, ![32768]⟩ ![] hb (constantI ⟨0, ![]⟩ 32 2#32)))
          (broadcastInDim ⟨1, ![32768]⟩ ![] hb (constantI ⟨0, ![]⟩ 32 1#32)))
        (Host.divsi (iotaInDim ⟨1, ![32768]⟩ 32 0) (broadcastInDim ⟨1, ![32768]⟩ ![] hb (constantI ⟨0, ![]⟩ 32 2#32)))
        (ix1 i)
      = BitVec.ofNat 32 (i.val / 2) :=
  floorDiv2_apply ![] hb (iotaInDim ⟨1, ![32768]⟩ 32 0) (ix1 i) i.val (by have := i.isLt; omega) (iotaInDim_ix1 32 i)

end Cert.Moe

end
-- ==== Proof.Law.lean ====
/-
  The law that joins the two arrangements of a graph-convolution layer, on the extended reals.

  With real entries, one layer summed the reference's way — over edges AND appended self loops, each term the
  fetched source row times (source factor × destination factor) — equals the kernel's way: rows scaled by their
  own factor once, the edges' fetched rows summed into their destination, the node's own scaled row added, and the
  destination's factor applied to the total.  Three facts carry it: a sum over 800000 + 50000 positions splits into
  the edge part and the self-loop part; the self loop landing on node `b` is exactly loop `b`, and it fetches row
  `b`; an edge that lands on `b` has destination word `b`, so the fetch at that word reads row `b`.  What is
  left is distributivity of a real factor over a finite sum of reals — the one step that needs finite entries.
-/
import proofs.«154043_j43155831390481_1_alg».proof.Proof.Spec
import proofs.«154043_j43155831390481_1_alg».proof.Proof.LibIndexWords

noncomputable section

namespace Cert.Gcn

open Idealize.ShloMosaic Idealize.ShloMosaic.ValueIdx
open scoped BigOperators

/-- The inclusion of the reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## Index words -/

/-- A word that reads, signed, as a node number is not wrapped. -/
theorem wrapW_of_toInt (w : BitVec 32) (b : Nat) (h : w.toInt = (b : Int)) : wrapW w = w := by
  unfold wrapW
  have hc : IntOp.cmpi .slt w 0#32 = 0#1 := by
    show BitVec.ofBool (w.slt 0#32) = 0#1
    have hlt : ¬ (w.toInt < 0) := by omega
    rw [BitVec.slt_eq_decide, BitVec.toInt_zero, decide_eq_false hlt]
    rfl
  rw [hc, select_zero]

/-- A fetch at a word that reads, signed, as node `b` reads row `b`. -/
theorem rowOf_of_toInt (w : BitVec 32) (b : Fin 50000) (h : w.toInt = (b.val : Int)) : rowOf w = b := by
  apply Fin.ext
  show min (wrapW w).toInt.toNat (50000 - 1) = b.val
  rw [wrapW_of_toInt w b.val h, h, Int.toNat_natCast]
  have := b.isLt
  omega

/-- The word of node `n` reads, signed, as `n`. -/
theorem nodeWord_toInt (n : Fin 50000) : (BitVec.ofNat 32 n.val).toInt = (n.val : Int) :=
  Cert.Moe.idxWord_toInt n.val (by have := n.isLt; omega)

/-- The position of edge `e` in a column with the self loops appended. -/
def edgePos (e : Fin 800000) : Fin 850000 := ⟨e.val, by have := e.isLt; omega⟩

/-- The position of node `n`'s self loop. -/
def loopPos (n : Fin 50000) : Fin 850000 := ⟨800000 + n.val, by have := n.isLt; omega⟩

/-- A position among the edges carries the edge's word. -/
theorem catW_edge (f : Fin 800000 → BitVec 32) (e : Fin 800000) : catW f (edgePos e) = f e := by
  unfold catW
  rw [dif_pos (show (edgePos e).val < 800000 from e.isLt)]
  rfl

/-- A position past the edges carries the word of its node. -/
theorem catW_loop (f : Fin 800000 → BitVec 32) (n : Fin 50000) : catW f (loopPos n) = BitVec.ofNat 32 n.val := by
  unfold catW
  have hv : (loopPos n).val = 800000 + n.val := rfl
  rw [dif_neg (by rw [hv]; omega), hv, Nat.add_sub_cancel_left]

/-! ## Splitting a filtered sum over edges followed by self loops -/

theorem sum_filter_split (P : Fin 850000 → Prop) [DecidablePred P] (g : Fin 850000 → EReal) :
    ∑ p ∈ Finset.univ.filter P, g p
      = ∑ e ∈ Finset.univ.filter (fun e : Fin 800000 => P (edgePos e)), g (edgePos e)
        + ∑ k ∈ Finset.univ.filter (fun k : Fin 50000 => P (loopPos k)), g (loopPos k) := by
  simp only [Finset.sum_filter]
  have h : 800000 + 50000 = 850000 := by norm_num
  rw [← (finCongr h).sum_comp (fun p => if P p then g p else 0), Fin.sum_univ_add]
  rfl

variable {K C : Nat}

/-! ## One layer -/

/-- ONE LAYER, the reference's sum against the kernel's, for real rows and real degree factors (the bias is any
    extended real: it is only added at the end on both sides). -/
theorem convR_eq (ei : EdgeTable) (d' : Fin 50000 → ℝ) (H' : Fin 50000 → Fin C → ℝ) (bias : Fin C → EReal)
    (b : Fin 50000) (c : Fin C) :
    convR ei (fun n => ((d' n : ℝ) : EReal)) (fun r j => ((H' r j : ℝ) : EReal)) bias b c
      = affine (fun n => ((d' n : ℝ) : EReal))
          (aggK ei (rowscale (fun r j => ((H' r j : ℝ) : EReal)) (fun n => ((d' n : ℝ) : EReal)))) bias b c := by
  unfold convR affine aggK rowscale
  beta_reduce
  refine congrArg (· + bias c) ?_
  have hsplit := sum_filter_split
    (fun p => (catW (dstW ei) p).toInt = (b.val : Int))
    (fun p => ((H' (rowOf (catW (srcW ei) p)) c : ℝ) : EReal)
      * (((d' (rowOf (catW (srcW ei) p)) : ℝ) : EReal) * ((d' (rowOf (catW (dstW ei) p)) : ℝ) : EReal)))
  rw [hsplit]
  -- the self loops: exactly loop `b` lands on `b`
  have hloop : ∑ k ∈ Finset.univ.filter (fun k : Fin 50000 =>
        (catW (dstW ei) (loopPos k)).toInt = (b.val : Int)),
        ((H' (rowOf (catW (srcW ei) (loopPos k))) c : ℝ) : EReal)
          * (((d' (rowOf (catW (srcW ei) (loopPos k))) : ℝ) : EReal)
            * ((d' (rowOf (catW (dstW ei) (loopPos k))) : ℝ) : EReal))
      = ((H' b c : ℝ) : EReal) * (((d' b : ℝ) : EReal) * ((d' b : ℝ) : EReal)) := by
    have hb : b ∈ Finset.univ.filter (fun k : Fin 50000 =>
        (catW (dstW ei) (loopPos k)).toInt = (b.val : Int)) := by
      rw [Finset.mem_filter, catW_loop]
      exact ⟨Finset.mem_univ _, nodeWord_toInt b⟩
    rw [Finset.sum_eq_single_of_mem b hb]
    · rw [catW_loop, catW_loop, rowOf_of_toInt _ b (nodeWord_toInt b)]
    · intro k hk hne
      exfalso
      rw [Finset.mem_filter, catW_loop, nodeWord_toInt] at hk
      exact hne (Fin.ext (by have := hk.2; omega))
  -- the edges: one landing on `b` has destination word `b`
  have hedge : ∑ e ∈ Finset.univ.filter (fun e : Fin 800000 =>
        (catW (dstW ei) (edgePos e)).toInt = (b.val : Int)),
        ((H' (rowOf (catW (srcW ei) (edgePos e))) c : ℝ) : EReal)
          * (((d' (rowOf (catW (srcW ei) (edgePos e))) : ℝ) : EReal)
            * ((d' (rowOf (catW (dstW ei) (edgePos e))) : ℝ) : EReal))
      = ∑ e ∈ Finset.univ.filter (fun e : Fin 800000 => (dstW ei e).toInt = (b.val : Int)),
        (((H' (rowOf (srcW ei e)) c * (d' (rowOf (srcW ei e)) * d' b) : ℝ)) : EReal) := by
    refine Finset.sum_congr ?_ ?_
    · ext e
      simp only [Finset.mem_filter, catW_edge]
    · intro e he
      rw [Finset.mem_filter] at he
      rw [catW_edge, catW_edge, rowOf_of_toInt _ b he.2, EReal.coe_mul, EReal.coe_mul]
  rw [hloop, hedge]
  have hR : ∑ e ∈ Finset.univ.filter (fun e : Fin 800000 => (dstW ei e).toInt = (b.val : Int)),
        ((H' (rowOf (srcW ei e)) c : ℝ) : EReal) * ((d' (rowOf (srcW ei e)) : ℝ) : EReal)
      = ((∑ e ∈ Finset.univ.filter (fun e : Fin 800000 => (dstW ei e).toInt = (b.val : Int)),
          H' (rowOf (srcW ei e)) c * d' (rowOf (srcW ei e)) : ℝ) : EReal) := by
    rw [coe_sum]
    exact Finset.sum_congr rfl fun e _ => (EReal.coe_mul _ _).symm
  rw [hR, ← coe_sum, ← EReal.coe_zero, ← EReal.coe_mul, ← EReal.coe_mul, ← EReal.coe_mul, ← EReal.coe_add,
    ← EReal.coe_add, ← EReal.coe_add, ← EReal.coe_add, ← EReal.coe_mul, EReal.coe_eq_coe_iff]
  rw [zero_add, zero_add, mul_add, Finset.mul_sum]
  refine congrArg₂ (· + ·) (Finset.sum_congr rfl fun e _ => by ring) (by ring)

/-! ## Real entries stay real -/

/-- Rows of reals times a real matrix. -/
theorem mm_coe (X' : Fin 50000 → Fin K → ℝ) (W' : Fin K → Fin C → ℝ) :
    mm (fun r k => ((X' r k : ℝ) : EReal)) (fun k j => ((W' k j : ℝ) : EReal))
      = fun r j => ((∑ k : Fin K, X' r k * W' k j : ℝ) : EReal) := by
  funext r j
  unfold mm
  rw [coe_sum]
  exact Finset.sum_congr rfl fun k _ => (EReal.coe_mul _ _).symm

/-- The kernel's layer on real rows, real factors and a real bias, as a real. -/
def layer' (ei : EdgeTable) (d' : Fin 50000 → ℝ) (H' : Fin 50000 → Fin C → ℝ) (bias' : Fin C → ℝ)
    (b : Fin 50000) (c : Fin C) : ℝ :=
  d' b * ((0 + ∑ e ∈ Finset.univ.filter (fun e : Fin 800000 => (dstW ei e).toInt = (b.val : Int)),
      H' (rowOf (srcW ei e)) c * d' (rowOf (srcW ei e))) + H' b c * d' b) + bias' c

theorem layerK_coe (ei : EdgeTable) (d' : Fin 50000 → ℝ) (H' : Fin 50000 → Fin C → ℝ) (bias' : Fin C → ℝ) :
    affine (fun n => ((d' n : ℝ) : EReal))
        (aggK ei (rowscale (fun r j => ((H' r j : ℝ) : EReal)) (fun n => ((d' n : ℝ) : EReal))))
        (fun j => ((bias' j : ℝ) : EReal))
      = fun b c => ((layer' ei d' H' bias' b c : ℝ) : EReal) := by
  funext b c
  unfold affine aggK rowscale layer'
  beta_reduce
  rw [EReal.coe_add, EReal.coe_mul, EReal.coe_add, EReal.coe_add, EReal.coe_zero, coe_sum, EReal.coe_mul]
  refine congrArg (fun s => ((d' b : ℝ) : EReal) * ((0 + s) + ((H' b c : ℝ) : EReal) * ((d' b : ℝ) : EReal))
    + ((bias' c : ℝ) : EReal)) ?_
  exact Finset.sum_congr rfl fun e _ => (EReal.coe_mul _ _).symm

/-! ## Two layers -/

/-- THE TWO-LAYER NETWORK: the reference's arrangement equals the kernel's, for real inputs, weights, first bias
    and degree factors; the last bias is any extended real. -/
theorem gcn_eq (ei : EdgeTable) (d' : Fin 50000 → ℝ) (X' : Fin 50000 → Fin 128 → ℝ) (W1' : Fin 128 → Fin 128 → ℝ)
    (b1' : Fin 128 → ℝ) (W2' : Fin 128 → Fin 64 → ℝ) (b2 : Fin 64 → EReal) :
    convR ei (fun n => ((d' n : ℝ) : EReal))
        (mm (convR ei (fun n => ((d' n : ℝ) : EReal))
              (mm (fun r k => ((X' r k : ℝ) : EReal)) (fun k j => ((W1' k j : ℝ) : EReal)))
              (fun j => ((b1' j : ℝ) : EReal)))
            (fun k j => ((W2' k j : ℝ) : EReal))) b2
      = affine (fun n => ((d' n : ℝ) : EReal))
          (aggK ei (rowscale
            (mm (affine (fun n => ((d' n : ℝ) : EReal))
                  (aggK ei (rowscale (mm (fun r k => ((X' r k : ℝ) : EReal)) (fun k j => ((W1' k j : ℝ) : EReal)))
                    (fun n => ((d' n : ℝ) : EReal))))
                  (fun j => ((b1' j : ℝ) : EReal)))
                (fun k j => ((W2' k j : ℝ) : EReal)))
            (fun n => ((d' n : ℝ) : EReal)))) b2 := by
  rw [mm_coe X' W1']
  have h1 : convR ei (fun n => ((d' n : ℝ) : EReal))
      (fun r j => ((∑ k : Fin 128, X' r k * W1' k j : ℝ) : EReal)) (fun j => ((b1' j : ℝ) : EReal))
      = affine (fun n => ((d' n : ℝ) : EReal))
          (aggK ei (rowscale (fun r j => ((∑ k : Fin 128, X' r k * W1' k j : ℝ) : EReal))
            (fun n => ((d' n : ℝ) : EReal)))) (fun j => ((b1' j : ℝ) : EReal)) := by
    funext b c
    exact convR_eq ei d' (fun r j => ∑ k : Fin 128, X' r k * W1' k j) _ b c
  rw [h1, layerK_coe ei d' (fun r j => ∑ k : Fin 128, X' r k * W1' k j) b1', mm_coe _ W2']
  funext b c
  exact convR_eq ei d' _ b2 b c

end Cert.Gcn

end
-- ==== Proof.Net.lean ====
/-
  The two-layer network over the argument ARRAYS, in the reference's arrangement and in the kernel's, and their
  equality when every entry that a product distributes over is a real.

  `refOut` and `kernelOut` read the arrays at coordinates and are otherwise the compositions of Spec.lean's layer
  functions.  With real inputs, weights, first bias and degree factors (the last bias may be any extended real) the
  two are equal: choose the real entries and apply the law of two layers.
-/
import proofs.«154043_j43155831390481_1_alg».proof.Proof.Law

noncomputable section

namespace Cert.Gcn

open Idealize.ShloMosaic Idealize.ShloMosaic.ValueIdx
open scoped BigOperators

/-- The network as the reference arranges it, over the arrays. -/
def refOut (ei : EdgeTable) (d1 d2 : (⟨1, ![50000]⟩ : Shape).Idx → EReal) (x : (⟨2, ![50000, 128]⟩ : Shape).Idx → EReal)
    (w1 : (⟨2, ![128, 128]⟩ : Shape).Idx → EReal) (b1 : (⟨1, ![128]⟩ : Shape).Idx → EReal)
    (w2 : (⟨2, ![128, 64]⟩ : Shape).Idx → EReal) (b2 : (⟨1, ![64]⟩ : Shape).Idx → EReal)
    (b : Fin 50000) (k : Fin 64) : EReal :=
  convR ei (fun n => d2 (ix1 n))
    (mm (convR ei (fun n => d1 (ix1 n)) (mm (fun r j => x (ix2 r j)) (fun j l => w1 (ix2 j l))) (fun j => b1 (ix1 j)))
      (fun j l => w2 (ix2 j l)))
    (fun j => b2 (ix1 j)) b k

/-- The kernel's first region: the product of inputs and first weights, each row scaled by its degree factor. -/
def h1p (d : (⟨1, ![50000]⟩ : Shape).Idx → EReal) (x : (⟨2, ![50000, 128]⟩ : Shape).Idx → EReal)
    (w1 : (⟨2, ![128, 128]⟩ : Shape).Idx → EReal) : Fin 50000 → Fin 128 → EReal :=
  rowscale (mm (fun r j => x (ix2 r j)) (fun j l => w1 (ix2 j l))) (fun n => d (ix1 n))

/-- The first layer's output as the kernel's second region forms it from the first aggregation. -/
def y1 (ei : EdgeTable) (d : (⟨1, ![50000]⟩ : Shape).Idx → EReal) (x : (⟨2, ![50000, 128]⟩ : Shape).Idx → EReal)
    (w1 : (⟨2, ![128, 128]⟩ : Shape).Idx → EReal) (b1 : (⟨1, ![128]⟩ : Shape).Idx → EReal) :
    Fin 50000 → Fin 128 → EReal :=
  affine (fun n => d (ix1 n)) (aggK ei (h1p d x w1)) (fun j => b1 (ix1 j))

/-- The kernel's second region: the first layer's output times the second weights, rows scaled. -/
def h2p (ei : EdgeTable) (d : (⟨1, ![50000]⟩ : Shape).Idx → EReal) (x : (⟨2, ![50000, 128]⟩ : Shape).Idx → EReal)
    (w1 : (⟨2, ![128, 128]⟩ : Shape).Idx → EReal) (b1 : (⟨1, ![128]⟩ : Shape).Idx → EReal)
    (w2 : (⟨2, ![128, 64]⟩ : Shape).Idx → EReal) : Fin 50000 → Fin 64 → EReal :=
  rowscale (mm (y1 ei d x w1 b1) (fun j l => w2 (ix2 j l))) (fun n => d (ix1 n))

/-- The network as the kernel arranges it, over the arrays. -/
def kernelOut (ei : EdgeTable) (d : (⟨1, ![50000]⟩ : Shape).Idx → EReal) (x : (⟨2, ![50000, 128]⟩ : Shape).Idx → EReal)
    (w1 : (⟨2, ![128, 128]⟩ : Shape).Idx → EReal) (b1 : (⟨1, ![128]⟩ : Shape).Idx → EReal)
    (w2 : (⟨2, ![128, 64]⟩ : Shape).Idx → EReal) (b2 : (⟨1, ![64]⟩ : Shape).Idx → EReal)
    (b : Fin 50000) (k : Fin 64) : EReal :=
  affine (fun n => d (ix1 n)) (aggK ei (h2p ei d x w1 b1 w2)) (fun j => b2 (ix1 j)) b k

/-- THE TWO ARRANGEMENTS AGREE on real entries. -/
theorem net_eq (ei : EdgeTable) (d : (⟨1, ![50000]⟩ : Shape).Idx → EReal) (x : (⟨2, ![50000, 128]⟩ : Shape).Idx → EReal)
    (w1 : (⟨2, ![128, 128]⟩ : Shape).Idx → EReal) (b1 : (⟨1, ![128]⟩ : Shape).Idx → EReal)
    (w2 : (⟨2, ![128, 64]⟩ : Shape).Idx → EReal) (b2 : (⟨1, ![64]⟩ : Shape).Idx → EReal)
    (hd : ∀ n : Fin 50000, ∃ r : ℝ, d (ix1 n) = (r : EReal)) (hx : ∀ i, ∃ r : ℝ, x i = (r : EReal))
    (hw1 : ∀ i, ∃ r : ℝ, w1 i = (r : EReal)) (hb1 : ∀ i, ∃ r : ℝ, b1 i = (r : EReal))
    (hw2 : ∀ i, ∃ r : ℝ, w2 i = (r : EReal)) (b : Fin 50000) (k : Fin 64) :
    refOut ei d d x w1 b1 w2 b2 b k = kernelOut ei d x w1 b1 w2 b2 b k := by
  choose d' hd' using hd
  choose x' hx' using hx
  choose w1' hw1' using hw1
  choose b1' hb1' using hb1
  choose w2' hw2' using hw2
  unfold refOut kernelOut h2p y1 h1p
  simp only [hd', hx', hw1', hb1', hw2']
  exact congrFun (congrFun (gcn_eq ei d' (fun r j => x' (ix2 r j)) (fun j l => w1' (ix2 j l)) (fun j => b1' (ix1 j))
    (fun j l => w2' (ix2 j l)) (fun j => b2 (ix1 j))) b) k

end Cert.Gcn

end
-- ==== Proof.KernelValue.lean ====
/-
  The idealized kernel's result array, entry by entry, as the network in the kernel's arrangement.

  Region by region and stretch by stretch: the first region leaves the scaled product of the inputs and the first
  weights; the host adds the fetched rows per destination and the array itself; the second region applies the
  degree factor and the first bias, multiplies by the second weights and scales the rows; the host aggregates
  again; the third region applies the degree factor and the last bias.  Composed, entry (b, k) of the result is
  `Gcn.kernelOut` of the argument arrays and the degree-factor vector.
-/
import proofs.«154043_j43155831390481_1_alg».proof.Proof.KernelStages
import proofs.«154043_j43155831390481_1_alg».proof.Proof.Region0
import proofs.«154043_j43155831390481_1_alg».proof.Proof.Region1
import proofs.«154043_j43155831390481_1_alg».proof.Proof.Region2
import proofs.«154043_j43155831390481_1_alg».proof.Proof.Net

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.KernelIdeal.KHost
open scoped BigOperators

variable (m : (ℓ : Loc nD τ sig) → Buf (Elt Ideal) ℓ) (ρ : Dev nD → PrngReg) (c : Dev nD)

/-- The first region's output: inputs times first weights, rows scaled by the degree factor. -/
theorem stage0 (r : Fin 50000) (j : Fin 128) :
    W4 m ρ c (Proc.devRef .tc main_v15) (ix2 r j)
      = Cert.Gcn.h1p (W2 m ρ c (Proc.devRef .tc main_v13)) (m ((c.tc : Thread nD τ).loc main_arg0)) (m ((c.tc : Thread nD τ).loc main_arg2)) r j := by
  refine (congrFun (W4_arr m ρ c 3) (ix2 r j)).trans ?_
  refine (Cert.KernelIdeal.RegionValue.region0_value (V3 m ρ) c r j).trans ?_
  dsimp only [V3]
  rw [arg0_at3, arg2_at3, dcol_apply]
  rfl

/-- The first aggregation. -/
theorem stage1 (b : Fin 50000) (j : Fin 128) :
    W5 m ρ c (Proc.devRef .tc main_v26) (ix2 b j)
      = Cert.Gcn.aggK (m ((c.tc : Thread nD τ).loc main_arg1))
          (Cert.Gcn.h1p (W2 m ρ c (Proc.devRef .tc main_v13)) (m ((c.tc : Thread nD τ).loc main_arg0)) (m ((c.tc : Thread nD τ).loc main_arg2))) b j :=
  v26_apply m ρ c _ (stage0 m ρ c) b j

/-- The second region's output. -/
theorem stage2 (r : Fin 50000) (k : Fin 64) :
    W6 m ρ c (Proc.devRef .tc main_v28) (ix2 r k)
      = Cert.Gcn.h2p (m ((c.tc : Thread nD τ).loc main_arg1)) (W2 m ρ c (Proc.devRef .tc main_v13)) (m ((c.tc : Thread nD τ).loc main_arg0)) (m ((c.tc : Thread nD τ).loc main_arg2))
          (m ((c.tc : Thread nD τ).loc main_arg3)) (m ((c.tc : Thread nD τ).loc main_arg4)) r k := by
  refine (congrFun (W6_arr m ρ c 4) (ix2 r k)).trans ?_
  refine (Cert.KernelIdeal.RegionValue.region1_value (V5 m ρ) c r k).trans ?_
  dsimp only [V5]
  rw [v14_at5, dcol_apply, arg4_at5]
  unfold Cert.Gcn.h2p Cert.Gcn.rowscale Cert.Gcn.mm Cert.Gcn.y1 Cert.Gcn.affine
  refine congr (congrArg _ (Finset.sum_congr rfl fun j _ => ?_)) rfl
  rw [stage1, v27_apply]

/-- The second aggregation. -/
theorem stage3 (b : Fin 50000) (k : Fin 64) :
    W7 m ρ c (Proc.devRef .tc main_v39) (ix2 b k)
      = Cert.Gcn.aggK (m ((c.tc : Thread nD τ).loc main_arg1))
          (Cert.Gcn.h2p (m ((c.tc : Thread nD τ).loc main_arg1)) (W2 m ρ c (Proc.devRef .tc main_v13)) (m ((c.tc : Thread nD τ).loc main_arg0)) (m ((c.tc : Thread nD τ).loc main_arg2))
            (m ((c.tc : Thread nD τ).loc main_arg3)) (m ((c.tc : Thread nD τ).loc main_arg4))) b k :=
  v39_apply m ρ c _ (stage2 m ρ c) b k

/-- THE KERNEL'S RESULT at (b, k). -/
theorem kernel_value (b : Fin 50000) (k : Fin 64) :
    W8 m ρ c (Proc.devRef .tc main_v41) (ix2 b k)
      = Cert.Gcn.kernelOut (m ((c.tc : Thread nD τ).loc main_arg1)) (W2 m ρ c (Proc.devRef .tc main_v13)) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5)) b k := by
  refine (congrFun (W8_arr m ρ c 3) (ix2 b k)).trans ?_
  refine (Cert.KernelIdeal.RegionValue.region2_value (V7 m ρ) c b k).trans ?_
  dsimp only [V7]
  rw [v14_at7, dcol_apply, stage3, v40_apply]
  rfl

end Cert.KernelIdeal.KValue

end
-- ==== Proof.RefIndex.lean ====
/-
  The integer side of the reference, read at a position.

  The reference lists the messages of a layer along one axis of 850000 positions: the 800000 edges first, then one
  self loop per node.  Its source column is the edge table's source row followed by the node numbers 0, 1, …, 49999,
  and its destination column the destination row followed by the same numbers: at position p this is the word
  `catW (srcW ei) p`, respectively `catW (dstW ei) p`.

  Before a row is fetched at such a word, a negative word is wrapped by adding the number of nodes — a select between
  the word plus 50000 and the word, on the signed comparison with 0 — and the wrapped column is passed as an
  [850000, 1] array: its entry (p, 0) is `wrapW` of the word.  The column that says where a message is added is the
  unwrapped destination column, passed the same way: its entry (p, 0) is the destination word itself.
-/
import proofs.«154043_j43155831390481_1_alg».proof.Proof.RefRead
import proofs.«154043_j43155831390481_1_alg».proof.Proof.Spec
import proofs.«154043_j43155831390481_1_alg».proof.Proof.LibIndexWords

noncomputable section

namespace Cert.ReferenceIdeal.RefValue

open Cert.ReferenceIdeal Cert.ReferenceIdeal.Gen Idealize.ShloMosaic Idealize.ShloMosaic.ValueIdx

variable {F : FTy → Type} [FloatOps F]

/-! ## The two rows of the edge table -/

/-- Row 0 of the edge table, flattened: entry e is edge e's source word. -/
theorem src_apply (x1 : (⟨S2x800000, .i32⟩ : BufTy).Contents (Elt F)) (e : Fin 800000) :
    Read.val_main_v1 (F := F) x1 (ix1 e) = Gcn.srcW x1 e := by
  rw [Read.val_main_v1_apply, Read.val_main_v0_apply]
  refine congrArg x1 (funext fun a => ?_)
  match a with
  | ⟨0, _⟩ => rfl
  | ⟨1, _⟩ => exact Fin.ext (Nat.mod_eq_of_lt e.isLt)

/-- Row 1 of the edge table, flattened: entry e is edge e's destination word. -/
theorem dst_apply (x1 : (⟨S2x800000, .i32⟩ : BufTy).Contents (Elt F)) (e : Fin 800000) :
    Read.val_main_v3 (F := F) x1 (ix1 e) = Gcn.dstW x1 e := by
  rw [Read.val_main_v3_apply, Read.val_main_v2_apply]
  refine congrArg x1 (funext fun a => ?_)
  match a with
  | ⟨0, _⟩ => rfl
  | ⟨1, _⟩ => exact Fin.ext (Nat.mod_eq_of_lt e.isLt)

/-! ## Edge words followed by the node numbers -/

/-- 800000 words followed by the words of 0, 1, …, 49999, read at position p. -/
theorem cat_apply (a : IVec S800000 32) (n : IVec S50000 32) (f : Fin 800000 → BitVec 32)
    (ha : ∀ e : Fin 800000, a (ix1 e) = f e) (hn : ∀ v : Fin 50000, n (ix1 v) = BitVec.ofNat 32 v.val)
    (p : Fin 850000) :
    concatenate S850000 0 [⟨S800000, a⟩, ⟨S50000, n⟩] concatenates_S800000_S50000_S850000_d0 (ix1 p)
      = Gcn.catW f p := by
  unfold Gcn.catW
  split
  · next h =>
    refine (concatenate_pair_apply_left (0 : Fin 1) a n concatenates_S800000_S50000_S850000_d0 (ix1 p) rfl
      (ix1 ⟨p.val, h⟩) (fun b => ?_)).trans (ha ⟨p.val, h⟩)
    match b with
    | ⟨0, _⟩ => rfl
  · next h =>
    have h2 : p.val - 800000 < 50000 := by have := p.isLt; omega
    refine (concatenate_pair_apply_right (0 : Fin 1) a n concatenates_S800000_S50000_S850000_d0 (ix1 p) rfl rfl
      (ix1 ⟨p.val - 800000, h2⟩) (fun b hb => ?_) ?_).trans (hn ⟨p.val - 800000, h2⟩)
    · exact absurd (Subsingleton.elim (α := Fin 1) _ _) hb
    · show (p.val - 800000) + 800000 = p.val
      omega

/-- The source column of the first layer. -/
theorem v6_apply (x1 : (⟨S2x800000, .i32⟩ : BufTy).Contents (Elt F)) (p : Fin 850000) :
    Read.val_main_v6 (F := F) x1 (ix1 p) = Gcn.catW (Gcn.srcW x1) p :=
  cat_apply _ _ _ (src_apply x1) (fun _ => rfl) p

/-- The destination column of the first layer. -/
theorem v7_apply (x1 : (⟨S2x800000, .i32⟩ : BufTy).Contents (Elt F)) (p : Fin 850000) :
    Read.val_main_v7 (F := F) x1 (ix1 p) = Gcn.catW (Gcn.dstW x1) p :=
  cat_apply _ _ _ (dst_apply x1) (fun _ => rfl) p

/-- The source column of the second layer. -/
theorem v49_apply (x1 : (⟨S2x800000, .i32⟩ : BufTy).Contents (Elt F)) (p : Fin 850000) :
    Read.val_main_v49 (F := F) x1 (ix1 p) = Gcn.catW (Gcn.srcW x1) p :=
  cat_apply _ _ _ (src_apply x1) (fun _ => rfl) p

/-- The destination column of the second layer. -/
theorem v50_apply (x1 : (⟨S2x800000, .i32⟩ : BufTy).Contents (Elt F)) (p : Fin 850000) :
    Read.val_main_v50 (F := F) x1 (ix1 p) = Gcn.catW (Gcn.dstW x1) p :=
  cat_apply _ _ _ (dst_apply x1) (fun _ => rfl) p

/-! ## The columns as [850000, 1] arrays -/

/-- A column of 850000 entries passed as an [850000, 1] array reads, at (p, u), the column at p. -/
theorem asColumn_apply {α : Type} (y : S850000.Idx → α) (p : Fin 850000) (u : Fin 1) :
    broadcastInDim S850000x1 ![0] bcast_S850000_S850000x1_0 y (ix2 p u) = y (ix1 p) :=
  broadcastInDim_apply _ bcast_S850000_S850000x1_0 y (ix2 p u) (ix1 p) (fun a => match a with
    | ⟨0, _⟩ => by show p.val = if (850000 : Nat) = 1 then 0 else p.val; rw [if_neg (by decide)])

/-- One word spread over the 850000 positions reads that word at every position. -/
theorem splat_apply {α : Type} (c : S_.Idx → α) (i : S850000.Idx) :
    broadcastInDim S850000 ![] bcast_S_S850000 c i = c ix0 :=
  broadcastInDim_apply _ bcast_S_S850000 c i ix0 (fun a => a.elim0)

/-- THE WRAPPED COLUMN.  For a column w of index words, the select between w + 50000 and w on the signed comparison
    w < 0 (the words 0 and 50000 spread over the positions), passed as an [850000, 1] array, holds at (p, 0) the
    wrapped word of w at p. -/
theorem wrapColumn_apply (w : IVec S850000 32) (c0 c5 : IVec S_ 32) (h0 : c0 ix0 = 0#32) (h5 : c5 ix0 = 50000#32)
    (p : Fin 850000) :
    broadcastInDim S850000x1 ![0] bcast_S850000_S850000x1_0
        (select (cmpi .slt w (broadcastInDim S850000 ![] bcast_S_S850000 c0))
          (addi w (broadcastInDim S850000 ![] bcast_S_S850000 c5)) w) (ix2 p 0)
      = Gcn.wrapW (w (ix1 p)) := by
  rw [asColumn_apply]
  show Scalar.select (IntOp.cmpi .slt (w (ix1 p)) (broadcastInDim S850000 ![] bcast_S_S850000 c0 (ix1 p)))
      (IntOp.addi (w (ix1 p)) (broadcastInDim S850000 ![] bcast_S_S850000 c5 (ix1 p))) (w (ix1 p)) = _
  rw [splat_apply, splat_apply, h0, h5]
  rfl

/-- First layer, the source column wrapped: where the source's degree factor is fetched. -/
theorem v21_apply (x1 : (⟨S2x800000, .i32⟩ : BufTy).Contents (Elt F)) (p : Fin 850000) :
    Read.val_main_v21 (F := F) x1 (ix2 p 0) = Gcn.wrapW (Gcn.catW (Gcn.srcW x1) p) :=
  (wrapColumn_apply (Read.val_main_v6 (F := F) x1) Read.val_main_c Read.val_main_c_3 rfl rfl p).trans
    (congrArg Gcn.wrapW (v6_apply x1 p))

/-- First layer, the destination column wrapped: where the destination's degree factor is fetched. -/
theorem v28_apply (x1 : (⟨S2x800000, .i32⟩ : BufTy).Contents (Elt F)) (p : Fin 850000) :
    Read.val_main_v28 (F := F) x1 (ix2 p 0) = Gcn.wrapW (Gcn.catW (Gcn.dstW x1) p) :=
  (wrapColumn_apply (Read.val_main_v7 (F := F) x1) Read.val_main_c_4 Read.val_main_c_5 rfl rfl p).trans
    (congrArg Gcn.wrapW (v7_apply x1 p))

/-- First layer, the source column wrapped: where the source's row is fetched. -/
theorem v36_apply (x1 : (⟨S2x800000, .i32⟩ : BufTy).Contents (Elt F)) (p : Fin 850000) :
    Read.val_main_v36 (F := F) x1 (ix2 p 0) = Gcn.wrapW (Gcn.catW (Gcn.srcW x1) p) :=
  (wrapColumn_apply (Read.val_main_v6 (F := F) x1) Read.val_main_c_6 Read.val_main_c_7 rfl rfl p).trans
    (congrArg Gcn.wrapW (v6_apply x1 p))

/-- First layer, the destination column as it is: the node a message is added into. -/
theorem v42_apply (x1 : (⟨S2x800000, .i32⟩ : BufTy).Contents (Elt F)) (p : Fin 850000) :
    Read.val_main_v42 (F := F) x1 (ix2 p 0) = Gcn.catW (Gcn.dstW x1) p :=
  (asColumn_apply (Read.val_main_v7 (F := F) x1) p 0).trans (v7_apply x1 p)

/-- Second layer, the source column wrapped: where the source's degree factor is fetched. -/
theorem v64_apply (x1 : (⟨S2x800000, .i32⟩ : BufTy).Contents (Elt F)) (p : Fin 850000) :
    Read.val_main_v64 (F := F) x1 (ix2 p 0) = Gcn.wrapW (Gcn.catW (Gcn.srcW x1) p) :=
  (wrapColumn_apply (Read.val_main_v49 (F := F) x1) Read.val_main_c_13 Read.val_main_c_14 rfl rfl p).trans
    (congrArg Gcn.wrapW (v49_apply x1 p))

/-- Second layer, the destination column wrapped: where the destination's degree factor is fetched. -/
theorem v71_apply (x1 : (⟨S2x800000, .i32⟩ : BufTy).Contents (Elt F)) (p : Fin 850000) :
    Read.val_main_v71 (F := F) x1 (ix2 p 0) = Gcn.wrapW (Gcn.catW (Gcn.dstW x1) p) :=
  (wrapColumn_apply (Read.val_main_v50 (F := F) x1) Read.val_main_c_15 Read.val_main_c_16 rfl rfl p).trans
    (congrArg Gcn.wrapW (v50_apply x1 p))

/-- Second layer, the source column wrapped: where the source's row is fetched. -/
theorem v79_apply (x1 : (⟨S2x800000, .i32⟩ : BufTy).Contents (Elt F)) (p : Fin 850000) :
    Read.val_main_v79 (F := F) x1 (ix2 p 0) = Gcn.wrapW (Gcn.catW (Gcn.srcW x1) p) :=
  (wrapColumn_apply (Read.val_main_v49 (F := F) x1) Read.val_main_c_17 Read.val_main_c_18 rfl rfl p).trans
    (congrArg Gcn.wrapW (v49_apply x1 p))

/-- Second layer, the destination column as it is: the node a message is added into. -/
theorem v85_apply (x1 : (⟨S2x800000, .i32⟩ : BufTy).Contents (Elt F)) (p : Fin 850000) :
    Read.val_main_v85 (F := F) x1 (ix2 p 0) = Gcn.catW (Gcn.dstW x1) p :=
  (asColumn_apply (Read.val_main_v50 (F := F) x1) p 0).trans (v50_apply x1 p)

end Cert.ReferenceIdeal.RefValue

end
-- ==== Proof.RefLayer.lean ====
/-
  One layer of the reference, from what its arrays hold at a position.

  A layer sends one message per position p of the 850000 (the edges, then the self loops).  The message's row is the
  layer's input row fetched at the position's source word, and its scale is the product of the degree factor fetched
  at the source word and the degree factor fetched at the destination word, in that order.  The messages are added,
  row by row, into an array of zeros at the node whose number is the destination word read signed, and the bias row is
  added to every node: node b, column c holds
    (0 + the sum over the positions landing on b of  input[source row, c] * (factor[source row] * factor[destination row])) + bias[c],
  which is `Gcn.convR`.  Nothing here depends on the width of the rows.
-/
import proofs.«154043_j43155831390481_1_alg».proof.Proof.RefIndex
import proofs.«154043_j43155831390481_1_alg».proof.Proof.LibGatherRows
import proofs.«154043_j43155831390481_1_alg».proof.Proof.LibScatterRows

noncomputable section

namespace Cert.ReferenceIdeal.RefValue

open Cert.ReferenceIdeal Cert.ReferenceIdeal.Gen Idealize.ShloMosaic Idealize.ShloMosaic.ValueIdx
open scoped BigOperators

/-- Reading a word that is the wrap of v signed, clamped into the table, names the row `rowOf v`. -/
theorem rowOf_of_eq (w v : BitVec 32) (h : w = Gcn.wrapW v) (hlt : min w.toInt.toNat (50000 - 1) < 50000) :
    (⟨min w.toInt.toNat (50000 - 1), hlt⟩ : Fin 50000) = Gcn.rowOf v := by
  subst h
  rfl

/-- THE SCALE OF A MESSAGE: the degree factors fetched at the wrapped source word and at the wrapped destination
    word of position p, multiplied in that order. -/
theorem scale_apply (ei : Gcn.EdgeTable) (dv : FVec Ideal S50000 .f32) (iS iD : IVec S850000x1 32)
    (hS : ∀ p : Fin 850000, iS (ix2 p 0) = Gcn.wrapW (Gcn.catW (Gcn.srcW ei) p))
    (hD : ∀ p : Fin 850000, iD (ix2 p 0) = Gcn.wrapW (Gcn.catW (Gcn.dstW ei) p)) (p : Fin 850000) :
    mulf (Host.gather gather_S50000_S850000x1_S850000_n_0_n_n_0_1_1 dv iS)
        (Host.gather gather_S50000_S850000x1_S850000_n_0_n_n_0_1_1 dv iD) (ix1 p)
      = dv (ix1 (Gcn.rowOf (Gcn.catW (Gcn.srcW ei) p))) * dv (ix1 (Gcn.rowOf (Gcn.catW (Gcn.dstW ei) p))) := by
  have wf : GatherDims.WF ⟨1, ![50000]⟩ ⟨2, ![850000, 1]⟩ ⟨1, ![850000]⟩ [] [0] [] [0] [] 1 ![1] :=
    gather_S50000_S850000x1_S850000_n_0_n_n_0_1_1.wf
  have e : ∀ idx : IVec S850000x1 32,
      Host.gather gather_S50000_S850000x1_S850000_n_0_n_n_0_1_1 dv idx (ix1 p)
        = dv (ix1 ⟨min (idx (ix2 p 0)).toInt.toNat (50000 - 1), by omega⟩) :=
    fun idx => Cert.Moe.gather_flat_apply (by norm_num) wf dv idx p
  rw [mulf_apply, e iS, e iD]
  exact congrArg₂ (fun a b => dv (ix1 a) * dv (ix1 b)) (rowOf_of_eq _ _ (hS p) _) (rowOf_of_eq _ _ (hD p) _)

/-- A MESSAGE: the input row fetched at the wrapped source word of position p, column c, times the scale the scaled
    array holds there. -/
theorem message_apply {C : Nat}
    (wf : GatherDims.WF ⟨2, ![50000, C]⟩ ⟨2, ![850000, 1]⟩ ⟨2, ![850000, C]⟩ [1] [0] [] [0] [] 1 ![1, C])
    (ei : Gcn.EdgeTable) (Hv : FVec Ideal ⟨2, ![50000, C]⟩ .f32) (iS : IVec ⟨2, ![850000, 1]⟩ 32)
    (nb : FVec Ideal ⟨2, ![850000, C]⟩ .f32) (nrm : EReal) (p : Fin 850000) (c : Fin C)
    (hS : iS (ix2 p 0) = Gcn.wrapW (Gcn.catW (Gcn.srcW ei) p)) (hn : nb (ix2 p c) = nrm) :
    mulf (Host.gather (Cert.Moe.rowDims 50000 C 850000 wf) Hv iS) nb (ix2 p c)
      = Hv (ix2 (Gcn.rowOf (Gcn.catW (Gcn.srcW ei) p)) c) * nrm := by
  rw [mulf_apply, Cert.Moe.gather_rows_apply (by norm_num), hn]
  exact congrArg (fun r => Hv (ix2 r c) * nrm) (rowOf_of_eq _ _ hS _)

/-- THE LAYER: messages added into zeros at their destination word read signed, plus the bias, is `convR`.
    Stated over the operations as the program spells them (the accumulating scatter of rows, then the sum with the
    spread bias), so that a stage of the program is an instance of it by unfolding that stage's own definition only. -/
theorem conv_of_reads {C : Nat}
    (wf : ScatterDims.WF ⟨2, ![50000, C]⟩ ⟨2, ![850000, 1]⟩ ⟨2, ![850000, C]⟩ [1] [0] [0] 1)
    (ei : Gcn.EdgeTable) (d : Fin 50000 → EReal) (H : Fin 50000 → Fin C → EReal) (bias : Fin C → EReal)
    (zero : FVec Ideal ⟨2, ![50000, C]⟩ .f32) (idx : IVec ⟨2, ![850000, 1]⟩ 32)
    (upd : FVec Ideal ⟨2, ![850000, C]⟩ .f32) (bb : FVec Ideal ⟨2, ![50000, C]⟩ .f32)
    (hz : ∀ (b : Fin 50000) (c : Fin C), zero (ix2 b c) = (0 : EReal))
    (hidx : ∀ p : Fin 850000, idx (ix2 p 0) = Gcn.catW (Gcn.dstW ei) p)
    (hupd : ∀ (p : Fin 850000) (c : Fin C), upd (ix2 p c)
      = H (Gcn.rowOf (Gcn.catW (Gcn.srcW ei) p)) c
          * (d (Gcn.rowOf (Gcn.catW (Gcn.srcW ei) p)) * d (Gcn.rowOf (Gcn.catW (Gcn.dstW ei) p))))
    (hbb : ∀ (b : Fin 50000) (c : Fin C), bb (ix2 b c) = bias c) (b : Fin 50000) (c : Fin C) :
    addf (Host.scatterAdd (F := Ideal) (Cert.Moe.rowScatter 50000 C 850000 wf) zero idx upd) bb (ix2 b c)
      = Gcn.convR ei d H bias b c := by
  rw [addf_apply]
  unfold Host.scatterAdd
  rw [Idealize.ShloMosaic.Ideal.hostScatterAdd_def, Cert.Moe.scatterAdd_rows_apply, hz, hbb]
  unfold Gcn.convR
  have hf : (Finset.univ.filter fun p : Fin 850000 => (idx (ix2 p 0)).toInt = (b.val : Int))
      = Finset.univ.filter (fun p : Fin 850000 => (Gcn.catW (Gcn.dstW ei) p).toInt = (b.val : Int)) :=
    Finset.filter_congr (fun p _ => by rw [hidx])
  rw [hf]
  exact congrArg (fun s => (0 + s) + bias c) (Finset.sum_congr rfl fun p _ => hupd p c)

end Cert.ReferenceIdeal.RefValue

end
-- ==== Proof.RefLayer1.lean ====
/-
  The first layer of the reference, read at node b and column c.

  Its input rows are the rows of x times the first weight matrix; its degree factor is the array the reference
  computes from the destination column (kept opaque here); its bias is the first bias vector.  The layer's result is
  then multiplied by the second weight matrix, which is what the second layer fetches rows of.
-/
import proofs.«154043_j43155831390481_1_alg».proof.Proof.RefLayer

noncomputable section

namespace Cert.ReferenceIdeal.RefValue

open Cert.ReferenceIdeal Cert.ReferenceIdeal.Gen Idealize.ShloMosaic Idealize.ShloMosaic.ValueIdx
open scoped BigOperators

/-- x times the first weight matrix, at row r and column c. -/
theorem v4_apply (x0 : (⟨S50000x128, .f32⟩ : BufTy).Contents (Elt Ideal)) (x2 : (⟨S128x128, .f32⟩ : BufTy).Contents (Elt Ideal)) (r : Fin 50000) (c : Fin 128) :
    Read.val_main_v4 (F := Ideal) x0 x2 (ix2 r c)
      = Gcn.mm (fun r k => x0 (ix2 r k)) (fun k j => x2 (ix2 k j)) r c := by
  rw [Read.val_main_v4_apply]
  refine Finset.sum_congr rfl fun k _ => ?_
  have hl : Read.lidx_main_v4 (ix2 r c) k = ix2 r k := funext fun a => by
    match a with
    | ⟨0, _⟩ => rfl
    | ⟨1, _⟩ => rfl
  have hr : Read.ridx_main_v4 (ix2 r c) k = ix2 k c := funext fun a => by
    match a with
    | ⟨0, _⟩ => rfl
    | ⟨1, _⟩ => rfl
  rw [hl, hr]

/-- The scale of the message at position p: the source's degree factor times the destination's. -/
theorem v30_apply (x1 : (⟨S2x800000, .i32⟩ : BufTy).Contents (Elt Ideal)) (p : Fin 850000) :
    Read.val_main_v30 (F := Ideal) x1 (ix1 p)
      = Read.val_main_v15 (F := Ideal) x1 (ix1 (Gcn.rowOf (Gcn.catW (Gcn.srcW x1) p)))
          * Read.val_main_v15 (F := Ideal) x1 (ix1 (Gcn.rowOf (Gcn.catW (Gcn.dstW x1) p))) :=
  scale_apply x1 (Read.val_main_v15 (F := Ideal) x1) (Read.val_main_v21 (F := Ideal) x1)
    (Read.val_main_v28 (F := Ideal) x1) (v21_apply x1) (v28_apply x1) p

/-- The scales spread along the rows: entry (p, c) is the scale at p. -/
theorem v39_apply (x1 : (⟨S2x800000, .i32⟩ : BufTy).Contents (Elt Ideal)) (p : Fin 850000) (c : Fin 128) :
    Read.val_main_v39 (F := Ideal) x1 (ix2 p c) = Read.val_main_v30 (F := Ideal) x1 (ix1 p) := by
  rw [Read.val_main_v39_apply, Read.val_main_v38_apply]
  refine congrArg _ (funext fun a => ?_)
  match a with
  | ⟨0, _⟩ => rfl

/-- The message at position p, column c. -/
theorem v40_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (p : Fin 850000) (c : Fin 128) :
    Read.val_main_v40 (F := Ideal) x0 x1 x2 (ix2 p c)
      = Gcn.mm (fun r k => x0 (ix2 r k)) (fun k j => x2 (ix2 k j)) (Gcn.rowOf (Gcn.catW (Gcn.srcW x1) p)) c
          * (Read.val_main_v15 (F := Ideal) x1 (ix1 (Gcn.rowOf (Gcn.catW (Gcn.srcW x1) p)))
              * Read.val_main_v15 (F := Ideal) x1 (ix1 (Gcn.rowOf (Gcn.catW (Gcn.dstW x1) p)))) := by
  refine (message_apply gather_S50000x128_S850000x1_S850000x128_1_0_n_n_0_1_1128.wf x1
    (Read.val_main_v4 (F := Ideal) x0 x2) (Read.val_main_v36 (F := Ideal) x1) (Read.val_main_v39 (F := Ideal) x1) _ p c
    (v36_apply x1 p) ((v39_apply x1 p c).trans (v30_apply x1 p))).trans ?_
  rw [v4_apply]

/-- The array the messages are added into holds zero everywhere. -/
theorem v41_apply (b : Fin 50000) (c : Fin 128) : Read.val_main_v41 (F := Ideal) (ix2 b c) = (0 : EReal) := by
  rw [Read.val_main_v41_apply, Read.val_main_cst_8_apply]
  exact Ideal.ofBits_zero_f32

/-- The bias spread over the nodes: entry (b, c) is the bias at c. -/
theorem v45_apply (x3 : (⟨S128, .f32⟩ : BufTy).Contents (Elt Ideal)) (b : Fin 50000) (c : Fin 128) :
    Read.val_main_v45 (F := Ideal) x3 (ix2 b c) = x3 (ix1 c) := by
  rw [Read.val_main_v45_apply, Read.val_main_v44_apply]
  refine congrArg x3 (funext fun a => ?_)
  match a with
  | ⟨0, _⟩ => rfl

/-- THE FIRST LAYER at node b, column c. -/
theorem layer1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (b : Fin 50000) (c : Fin 128) :
    Read.val_main_v46 (F := Ideal) x0 x1 x2 x3 (ix2 b c)
      = Gcn.convR x1 (fun n => Read.val_main_v15 (F := Ideal) x1 (ix1 n))
          (Gcn.mm (fun r k => x0 (ix2 r k)) (fun k j => x2 (ix2 k j))) (fun j => x3 (ix1 j)) b c := by
  have wf : ScatterDims.WF ⟨2, ![50000, 128]⟩ ⟨2, ![850000, 1]⟩ ⟨2, ![850000, 128]⟩ [1] [0] [0] 1 :=
    scatter_S50000x128_S850000x1_S850000x128_1_0_0_1.wf
  unfold Read.val_main_v46 Read.val_main_v43
  exact conv_of_reads wf x1 (fun n => Read.val_main_v15 (F := Ideal) x1 (ix1 n))
    (Gcn.mm (fun r k => x0 (ix2 r k)) (fun k j => x2 (ix2 k j))) (fun j => x3 (ix1 j))
    (Read.val_main_v41 (F := Ideal)) (Read.val_main_v42 (F := Ideal) x1) (Read.val_main_v40 (F := Ideal) x0 x1 x2)
    (Read.val_main_v45 (F := Ideal) x3) v41_apply (v42_apply x1) (v40_apply x0 x1 x2) (v45_apply x3) b c

/-- The first layer's result times the second weight matrix, at row r and column j. -/
theorem v47_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (r : Fin 50000) (j : Fin 64) :
    Read.val_main_v47 (F := Ideal) x0 x1 x2 x3 x4 (ix2 r j)
      = Gcn.mm (Gcn.convR x1 (fun n => Read.val_main_v15 (F := Ideal) x1 (ix1 n))
            (Gcn.mm (fun r k => x0 (ix2 r k)) (fun k j => x2 (ix2 k j))) (fun j => x3 (ix1 j)))
          (fun k j => x4 (ix2 k j)) r j := by
  rw [Read.val_main_v47_apply]
  refine Finset.sum_congr rfl fun k _ => ?_
  have hl : Read.lidx_main_v47 (ix2 r j) k = ix2 r k := funext fun a => by
    match a with
    | ⟨0, _⟩ => rfl
    | ⟨1, _⟩ => rfl
  have hr : Read.ridx_main_v47 (ix2 r j) k = ix2 k j := funext fun a => by
    match a with
    | ⟨0, _⟩ => rfl
    | ⟨1, _⟩ => rfl
  rw [hl, hr, layer1]

end Cert.ReferenceIdeal.RefValue

end
-- ==== Proof.RefLayer2.lean ====
/-
  The second layer of the reference, read at node b and column c.

  Its input rows are the rows of the array the first layer's result times the second weight matrix gives (carried
  here as it stands); its degree factor is the second copy the reference computes from the destination column (kept
  opaque); its bias is the second bias vector.  The steps are those of the first layer at 64 columns.
-/
import proofs.«154043_j43155831390481_1_alg».proof.Proof.RefLayer

noncomputable section

namespace Cert.ReferenceIdeal.RefValue

open Cert.ReferenceIdeal Cert.ReferenceIdeal.Gen Idealize.ShloMosaic Idealize.ShloMosaic.ValueIdx
open scoped BigOperators

/-- The scale of the message at position p: the source's degree factor times the destination's. -/
theorem v73_apply (x1 : (⟨S2x800000, .i32⟩ : BufTy).Contents (Elt Ideal)) (p : Fin 850000) :
    Read.val_main_v73 (F := Ideal) x1 (ix1 p)
      = Read.val_main_v58 (F := Ideal) x1 (ix1 (Gcn.rowOf (Gcn.catW (Gcn.srcW x1) p)))
          * Read.val_main_v58 (F := Ideal) x1 (ix1 (Gcn.rowOf (Gcn.catW (Gcn.dstW x1) p))) :=
  scale_apply x1 (Read.val_main_v58 (F := Ideal) x1) (Read.val_main_v64 (F := Ideal) x1)
    (Read.val_main_v71 (F := Ideal) x1) (v64_apply x1) (v71_apply x1) p

/-- The scales spread along the rows: entry (p, c) is the scale at p. -/
theorem v82_apply (x1 : (⟨S2x800000, .i32⟩ : BufTy).Contents (Elt Ideal)) (p : Fin 850000) (c : Fin 64) :
    Read.val_main_v82 (F := Ideal) x1 (ix2 p c) = Read.val_main_v73 (F := Ideal) x1 (ix1 p) := by
  rw [Read.val_main_v82_apply, Read.val_main_v81_apply]
  refine congrArg _ (funext fun a => ?_)
  match a with
  | ⟨0, _⟩ => rfl

/-- The message at position p, column c. -/
theorem v83_apply (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (p : Fin 850000) (c : Fin 64) :
    Read.val_main_v83 (F := Ideal) x0 x1 x2 x3 x4 (ix2 p c)
      = Read.val_main_v47 (F := Ideal) x0 x1 x2 x3 x4 (ix2 (Gcn.rowOf (Gcn.catW (Gcn.srcW x1) p)) c)
          * (Read.val_main_v58 (F := Ideal) x1 (ix1 (Gcn.rowOf (Gcn.catW (Gcn.srcW x1) p)))
              * Read.val_main_v58 (F := Ideal) x1 (ix1 (Gcn.rowOf (Gcn.catW (Gcn.dstW x1) p)))) :=
  message_apply gather_S50000x64_S850000x1_S850000x64_1_0_n_n_0_1_164.wf x1
    (Read.val_main_v47 (F := Ideal) x0 x1 x2 x3 x4) (Read.val_main_v79 (F := Ideal) x1)
    (Read.val_main_v82 (F := Ideal) x1) _ p c (v79_apply x1 p) ((v82_apply x1 p c).trans (v73_apply x1 p))

/-- The array the messages are added into holds zero everywhere. -/
theorem v84_apply (b : Fin 50000) (c : Fin 64) : Read.val_main_v84 (F := Ideal) (ix2 b c) = (0 : EReal) := by
  rw [Read.val_main_v84_apply, Read.val_main_cst_19_apply]
  exact Ideal.ofBits_zero_f32

/-- The bias spread over the nodes: entry (b, c) is the bias at c. -/
theorem v88_apply (x5 : (⟨S64, .f32⟩ : BufTy).Contents (Elt Ideal)) (b : Fin 50000) (c : Fin 64) :
    Read.val_main_v88 (F := Ideal) x5 (ix2 b c) = x5 (ix1 c) := by
  rw [Read.val_main_v88_apply, Read.val_main_v87_apply]
  refine congrArg x5 (funext fun a => ?_)
  match a with
  | ⟨0, _⟩ => rfl

/-- THE SECOND LAYER at node b, column c, over its input rows as they stand. -/
theorem layer2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (b : Fin 50000) (c : Fin 64) :
    Read.val_main_v89 (F := Ideal) x0 x1 x2 x3 x4 x5 (ix2 b c)
      = Gcn.convR x1 (fun n => Read.val_main_v58 (F := Ideal) x1 (ix1 n))
          (fun r j => Read.val_main_v47 (F := Ideal) x0 x1 x2 x3 x4 (ix2 r j)) (fun j => x5 (ix1 j)) b c := by
  have wf : ScatterDims.WF ⟨2, ![50000, 64]⟩ ⟨2, ![850000, 1]⟩ ⟨2, ![850000, 64]⟩ [1] [0] [0] 1 :=
    scatter_S50000x64_S850000x1_S850000x64_1_0_0_1.wf
  unfold Read.val_main_v89 Read.val_main_v86
  exact conv_of_reads wf x1 (fun n => Read.val_main_v58 (F := Ideal) x1 (ix1 n))
    (fun r j => Read.val_main_v47 (F := Ideal) x0 x1 x2 x3 x4 (ix2 r j)) (fun j => x5 (ix1 j))
    (Read.val_main_v84 (F := Ideal)) (Read.val_main_v85 (F := Ideal) x1)
    (Read.val_main_v83 (F := Ideal) x0 x1 x2 x3 x4) (Read.val_main_v88 (F := Ideal) x5)
    v84_apply (v85_apply x1) (v83_apply x0 x1 x2 x3 x4) (v88_apply x5) b c

end Cert.ReferenceIdeal.RefValue

end
-- ==== Proof.RefValue.lean ====
/-
  The reference's result at node b and column c, as the closed formula of the specification.

  The second layer's input rows are the first layer's result times the second weight matrix, so the result is one
  `convR` over `mm` of another `convR` over `mm` of the input.  The two layers compute their degree factor by the same
  operations on the same destination column, so the two copies are one array.
-/
import proofs.«154043_j43155831390481_1_alg».proof.Proof.RefLayer1
import proofs.«154043_j43155831390481_1_alg».proof.Proof.RefLayer2

noncomputable section

namespace Cert.ReferenceIdeal.RefValue

open Cert.ReferenceIdeal Cert.ReferenceIdeal.Gen Idealize.ShloMosaic Idealize.ShloMosaic.ValueIdx
open scoped BigOperators

/-- THE REFERENCE at node b, column c. -/
theorem ref_value (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (b : Fin 50000) (c : Fin 64) :
    Read.val_main_v89 (F := Ideal) x0 x1 x2 x3 x4 x5 (ix2 b c)
      = Gcn.convR x1 (fun n => Read.val_main_v58 (F := Ideal) x1 (ix1 n))
          (Gcn.mm (Gcn.convR x1 (fun n => Read.val_main_v15 (F := Ideal) x1 (ix1 n))
                      (Gcn.mm (fun r k => x0 (ix2 r k)) (fun k j => x2 (ix2 k j))) (fun j => x3 (ix1 j)))
                  (fun k j => x4 (ix2 k j)))
          (fun j => x5 (ix1 j)) b c := by
  have hH : (fun r j => Read.val_main_v47 (F := Ideal) x0 x1 x2 x3 x4 (ix2 r j))
      = Gcn.mm (Gcn.convR x1 (fun n => Read.val_main_v15 (F := Ideal) x1 (ix1 n))
            (Gcn.mm (fun r k => x0 (ix2 r k)) (fun k j => x2 (ix2 k j))) (fun j => x3 (ix1 j)))
          (fun k j => x4 (ix2 k j)) :=
    funext fun r => funext fun j => v47_apply x0 x1 x2 x3 x4 r j
  rw [layer2, hH]

/-- The two layers' degree factors are the same array: the same operations on the same destination column. -/
theorem dinv_same (x1 : (⟨S2x800000, .i32⟩ : BufTy).Contents (Elt Ideal)) :
    Read.val_main_v58 (F := Ideal) x1 = Read.val_main_v15 (F := Ideal) x1 := rfl

end Cert.ReferenceIdeal.RefValue

end
-- ==== Proof.Dinv.lean ====
/-
  The degree factor is a real number at every node.

  A node's degree is the zero word's value plus a finite sum of ones (one per edge or self loop whose destination
  word reads as the node), hence a real.  The factor is the reciprocal square root of the degree where the degree is
  positive and zero elsewhere: the reciprocal square root of a positive real is a real, and so is zero.
-/
import proofs.«154043_j43155831390481_1_alg».proof.Proof.RefRead
import proofs.«154043_j43155831390481_1_alg».proof.Proof.Law

noncomputable section

namespace Cert.ReferenceIdeal.Dinv

open Cert.ReferenceIdeal Cert.ReferenceIdeal.Read Idealize.ShloMosaic Idealize.ShloMosaic.ValueIdx
open scoped BigOperators

/-- The word 0x3F800000 is the real one. -/
theorem one_f32 : Ideal.ofBits .f32 0x3F800000#32 = ((1 : ℝ) : EReal) := by
  simp [Ideal.ofBits, Ideal.ieee, -EReal.coe_mul]; norm_num

/-- Where the degree is a real, the factor "reciprocal square root if positive, else zero" is a real. -/
theorem factor_real (deg : EReal) (hdeg : ∃ r : ℝ, deg = (r : EReal)) :
    ∃ r : ℝ, Scalar.select (Ideal.cmp .ogt deg 0) (Ideal.rsqrt deg) 0 = (r : EReal) := by
  obtain ⟨r, rfl⟩ := hdeg
  by_cases hr : 0 < r
  · refine ⟨(Real.sqrt r)⁻¹, ?_⟩
    have hc : Ideal.cmp .ogt ((r : ℝ) : EReal) 0 = 1#1 := by
      unfold Ideal.cmp
      simp only [EReal.coe_pos, hr, decide_true]
      rfl
    rw [hc, Ideal.rsqrt_coe, if_neg (not_lt.mpr hr.le), if_neg hr.ne']
    rfl
  · refine ⟨0, ?_⟩
    have hc : Ideal.cmp .ogt ((r : ℝ) : EReal) 0 = 0#1 := by
      unfold Ideal.cmp
      simp only [EReal.coe_pos, hr, decide_false]
      rfl
    rw [hc]
    rfl

/-- A node's degree is a real. -/
theorem deg_real (x1 : (⟨S2x800000, .i32⟩ : BufTy).Contents (Elt Ideal)) (i : S50000.Idx) :
    ∃ r : ℝ, val_main_v11 (F := Ideal) x1 i = (r : EReal) := by
  unfold val_main_v11
  show ∃ r : ℝ, Ideal.hostScatterAdd scatter_S50000_S850000x1_S850000_n_0_0_1 (val_main_v9 (F := Ideal))
    (val_main_v10 (F := Ideal) x1) (val_main_v8 (F := Ideal)) i = (r : EReal)
  unfold Ideal.hostScatterAdd
  refine ⟨0 + ∑ j ∈ Finset.univ.filter (fun j => scatter_S50000_S850000x1_S850000_n_0_0_1.resultIdx? j
    (val_main_v10 (F := Ideal) x1) = some i), (1 : ℝ), ?_⟩
  rw [EReal.coe_add, Cert.Gcn.coe_sum, val_main_v9_apply, val_main_cst_0_apply, Ideal.ofBits_def,
    Ideal.ofBits_zero_f32, EReal.coe_zero]
  refine congrArg (0 + ·) (Finset.sum_congr rfl fun j _ => ?_)
  rw [val_main_v8_apply, val_main_cst_apply, Ideal.ofBits_def, one_f32]

/-- THE DEGREE FACTOR IS A REAL at every node. -/
theorem dinv_real (x1 : (⟨S2x800000, .i32⟩ : BufTy).Contents (Elt Ideal)) (n : Fin 50000) :
    ∃ r : ℝ, val_main_v15 (F := Ideal) x1 (ix1 n) = (r : EReal) := by
  rw [val_main_v15_apply, val_main_v13_apply, val_main_v14_apply, val_main_call0_v1_apply, val_main_call0_v0_apply,
    val_main_cst_2_apply, val_main_v12_apply, val_main_cst_1_apply]
  simp only [Ideal.ofBits_def, Ideal.ofBits_zero_f32, Ideal.hostUnary_rsqrt_def]
  exact factor_real _ (deg_real x1 (ix1 n))

end Cert.ReferenceIdeal.Dinv

end
-- ==== Proof.Finite.lean ====
/-
  The precondition says every float input is a real number.

  The printed precondition tests, for each float argument, that the absolute value of every entry is below plus
  infinity, and conjoins the five tests.  Its being all ones gives each test at each entry; an extended real whose
  absolute value is below plus infinity is neither infinity, hence a real.
-/
import proofs.«154043_j43155831390481_1_alg».proof.Pre_finite_inputs
import Idealize.ShloMosaic.PureOps.Ideal.Laws
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

instance : Subsingleton S_.Idx := ⟨fun a b => funext fun d => d.elim0⟩

/-- The word 0x7F800000 is plus infinity. -/
theorem inf_f32 : Ideal.ofBits .f32 0x7F800000#32 = (⊤ : EReal) := by simp [Ideal.ofBits, Ideal.ieee]

/-- An entry passing the test "|x| < +inf" is a real. -/
theorem real_of_test (x : EReal)
    (h : Ideal.cmp .olt (max x (-x)) (Ideal.ofBits .f32 0x7F800000#32) = 1#1) : ∃ r : ℝ, x = (r : EReal) := by
  rw [inf_f32] at h
  induction x using EReal.rec with
  | bot =>
    exfalso
    have : max (⊥ : EReal) (-⊥) = ⊤ := by simp
    rw [this] at h
    revert h
    simp [Ideal.cmp]
  | coe r => exact ⟨r, rfl⟩
  | top =>
    exfalso
    have : max (⊤ : EReal) (-⊤) = ⊤ := by simp
    rw [this] at h
    revert h
    simp [Ideal.cmp]

variable [Facts]

/-- THE PRECONDITION READ BACK: every entry of the five float arguments is a real. -/
theorem finite_of_pre (a0 : FVec Ideal S50000x128 .f32) (a1 : IVec S2x800000 32) (a2 : FVec Ideal S128x128 .f32)
    (a3 : FVec Ideal S128 .f32) (a4 : FVec Ideal S128x64 .f32) (a5 : FVec Ideal S64 .f32)
    (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ix0
  dsimp only [fn, fn_part1] at h0
  obtain ⟨h1234, h5⟩ := IntOp.andi_eq_one.mp h0
  obtain ⟨h123, h4⟩ := IntOp.andi_eq_one.mp h1234
  obtain ⟨h12, h3⟩ := IntOp.andi_eq_one.mp h123
  obtain ⟨h1, h2⟩ := IntOp.andi_eq_one.mp h12
  exact ⟨fun i => real_of_test (a0 i) (Host.reduce_andi_all _ _ _ _ ix0 h1 i),
    fun i => real_of_test (a2 i) (Host.reduce_andi_all _ _ _ _ ix0 h2 i),
    fun i => real_of_test (a3 i) (Host.reduce_andi_all _ _ _ _ ix0 h3 i),
    fun i => real_of_test (a4 i) (Host.reduce_andi_all _ _ _ _ ix0 h4 i),
    fun i => real_of_test (a5 i) (Host.reduce_andi_all _ _ _ _ ix0 h5 i)⟩

end Cert.Pre_finite_inputs.Finite

end
-- ==== Proof.Bridge.lean ====
/-
  The reference's result and the idealized kernel's result are one array.

  Both programs compute the degree factor by the same operations on the same edge table, so it is one vector, and
  it is real at every node.  Under the precondition every float argument is real.  The reference's result is the
  network in the reference's arrangement and the kernel's is the network in the kernel's arrangement, which agree
  on real entries.
-/
import proofs.«154043_j43155831390481_1_alg».proof.Proof.KernelValue
import proofs.«154043_j43155831390481_1_alg».proof.Proof.RefValue
import proofs.«154043_j43155831390481_1_alg».proof.Proof.Dinv
import proofs.«154043_j43155831390481_1_alg».proof.Proof.Finite

set_option maxRecDepth 16384

noncomputable section

namespace Cert.Bridge

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg) (c : Dev nD)

/-- The selection step of the degree factor, over the first stretch's contents. -/
theorem v13_eq :
    W2 m ρ c (Proc.devRef .tc main_v13)
      = select (W1 m ρ c (Proc.devRef .tc main_v11)) (W1 m ρ c (Proc.devRef .tc main_v12))
          (broadcastInDim S50000 ![] bcast_S_S50000 (id (W1 m ρ c (Proc.devRef .tc main_cst_2)))) := by
  show StableHlo.after hostOps0_1 (W1 m ρ c) (Proc.devRef .tc main_v13) = _
  generalize W1 m ρ c = Wv
  after_results
  rfl

set_option maxHeartbeats 4000000 in
/-- The kernel's test "degree positive" is the reference's. -/
theorem pos_same :
    W1 m ρ c (Proc.devRef .tc main_v11)
      = Cert.ReferenceIdeal.Read.val_main_v13 (F := Ideal) (m ((c.tc : Thread nD τ).loc main_arg1)) := by
  show StableHlo.after hostOps0 (W0 m ρ c) (Proc.devRef .tc main_v11) = _
  after_results
  unfold Cert.ReferenceIdeal.Read.val_main_v13 Cert.ReferenceIdeal.Read.val_main_v12 Cert.ReferenceIdeal.Read.val_main_cst_1 Cert.ReferenceIdeal.Read.val_main_v11 Cert.ReferenceIdeal.Read.val_main_v10 Cert.ReferenceIdeal.Read.val_main_v9 Cert.ReferenceIdeal.Read.val_main_v8 Cert.ReferenceIdeal.Read.val_main_v7
    Cert.ReferenceIdeal.Read.val_main_cst_0 Cert.ReferenceIdeal.Read.val_main_cst Cert.ReferenceIdeal.Read.val_main_v5 Cert.ReferenceIdeal.Read.val_main_v3 Cert.ReferenceIdeal.Read.val_main_v2
  rfl

set_option maxHeartbeats 4000000 in
/-- The kernel's reciprocal square root of the degree is the reference's. -/
theorem rsqrt_same :
    W1 m ρ c (Proc.devRef .tc main_v12)
      = Cert.ReferenceIdeal.Read.val_main_v14 (F := Ideal) (m ((c.tc : Thread nD τ).loc main_arg1)) := by
  show StableHlo.after hostOps0 (W0 m ρ c) (Proc.devRef .tc main_v12) = _
  after_results
  unfold Cert.ReferenceIdeal.Read.val_main_v14 Cert.ReferenceIdeal.Read.val_main_v11 Cert.ReferenceIdeal.Read.val_main_v10 Cert.ReferenceIdeal.Read.val_main_v9 Cert.ReferenceIdeal.Read.val_main_v8 Cert.ReferenceIdeal.Read.val_main_v7
    Cert.ReferenceIdeal.Read.val_main_cst_0 Cert.ReferenceIdeal.Read.val_main_cst Cert.ReferenceIdeal.Read.val_main_v5 Cert.ReferenceIdeal.Read.val_main_v3 Cert.ReferenceIdeal.Read.val_main_v2
  rfl

set_option maxHeartbeats 4000000 in
/-- The zero the factor falls back to. -/
theorem zero_same :
    W1 m ρ c (Proc.devRef .tc main_cst_2) = Cert.ReferenceIdeal.Read.val_main_cst_2 (F := Ideal) := by
  show StableHlo.after hostOps0 (W0 m ρ c) (Proc.devRef .tc main_cst_2) = _
  after_results
  rfl

/-- The kernel's degree-factor vector is the reference's: the same operations on the same edge table. -/
theorem dinv_kernel :
    W2 m ρ c (Proc.devRef .tc main_v13)
      = Cert.ReferenceIdeal.Read.val_main_v15 (F := Ideal) (m ((c.tc : Thread nD τ).loc main_arg1)) := by
  rw [v13_eq, pos_same, rsqrt_same, zero_same]
  rfl

variable [Cert.Pre_finite_inputs.Facts]

/-- THE TWO RESULTS ARE ONE ARRAY, under the precondition. -/
theorem result_eq
    (hpre : Cert.Pre_finite_inputs.fn (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) = fun _ => 1#1) :
    Cert.ReferenceIdeal.Read.val_main_v89 (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5))
      = W8 m ρ c (Proc.devRef .tc main_v41) := by
  funext i
  obtain ⟨b, k, rfl⟩ : ∃ (b : Fin 50000) (k : Fin 64), i = ix2 b k := ⟨i 0, i 1, eq_ix2 i⟩
  refine (Cert.ReferenceIdeal.RefValue.ref_value _ _ _ _ _ _ b k).trans ?_
  refine Eq.trans ?_ (Cert.KernelIdeal.KValue.kernel_value m ρ c b k).symm
  rw [Cert.ReferenceIdeal.RefValue.dinv_same, dinv_kernel]
  obtain ⟨h0, h2, h3, h4, _⟩ := Cert.Pre_finite_inputs.Finite.finite_of_pre _ _ _ _ _ _ hpre
  exact Cert.Gcn.net_eq (m ((c.tc : Thread nD τ).loc main_arg1))
    (Cert.ReferenceIdeal.Read.val_main_v15 (F := Ideal) (m ((c.tc : Thread nD τ).loc main_arg1)))
    (m ((c.tc : Thread nD τ).loc main_arg0)) (m ((c.tc : Thread nD τ).loc main_arg2))
    (m ((c.tc : Thread nD τ).loc main_arg3)) (m ((c.tc : Thread nD τ).loc main_arg4))
    (m ((c.tc : Thread nD τ).loc main_arg5))
    (fun n => Cert.ReferenceIdeal.Dinv.dinv_real _ n) h0 h2 h3 h4 b k

end Cert.Bridge

end
-- ==== Proof.lean ====
/-
  A two-layer graph convolution over 50000 nodes and 800000 directed edges: the tiled kernel against the plain
  reference, equal on the extended reals under finite float inputs.

  One layer of the reference: multiply the node features by a weight matrix; append one self loop per node to the
  edges; the degree of a node is the number of edges and loops whose destination word names it, its degree factor
  the reciprocal square root of the degree (zero where the degree is not positive); every edge and loop sends the
  source's product row, scaled by the source's factor times the destination's factor, to its destination, where
  the rows are summed; then the bias is added.  The kernel computes the same layer in three pieces: a tiled product
  whose rows are scaled by their own factor at once; a sum of the fetched scaled rows per destination, to which the
  scaled array itself is added for the self loops; and the destination's factor applied to the total together with
  the bias — fused, for the first layer, into the tiled product of the second.  The degree factors are computed by
  the same operations in both programs.  The two arrangements differ by moving a factor across a finite sum, which
  holds for real numbers and fails at infinities: this is where the precondition is used.  Every entry met is real:
  the inputs, weights and first bias by the precondition, a degree as a finite sum of ones, a degree factor as the
  reciprocal square root of a positive real or zero, and then products and finite sums of reals.

  The three frames: the two kernels' from their generated frame proofs, the reference's from its run.  The
  idealization rewrote no operation.  The value claim: the kernel's run names its result as the last region's
  output array (KernelRun), read entry by entry through the regions and host steps (KernelValue); the reference's
  run names its result as its operations' term, read entry by entry (RefValue); the two formulas agree (Bridge).
-/
import proofs.«154043_j43155831390481_1_alg».proof.Defs
import proofs.«154043_j43155831390481_1_alg».proof.Proof.Gen.Kernel
import proofs.«154043_j43155831390481_1_alg».proof.Proof.Gen.Kernel.Frame
import proofs.«154043_j43155831390481_1_alg».proof.Proof.Gen.KernelIdeal
import proofs.«154043_j43155831390481_1_alg».proof.Proof.Gen.KernelIdeal.Frame
import proofs.«154043_j43155831390481_1_alg».proof.Proof.Gen.ReferenceIdeal
import proofs.«154043_j43155831390481_1_alg».proof.Proof.Gen.Pre_finite_inputs
import proofs.«154043_j43155831390481_1_alg».proof.Proof.RefRead
import proofs.«154043_j43155831390481_1_alg».proof.Proof.KernelRun
import proofs.«154043_j43155831390481_1_alg».proof.Proof.Bridge

noncomputable section

namespace Cert.Proof

open Idealize.ShloMosaic Idealize.SL.Sem

/-- The kernel as printed runs, faults nowhere and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel's last
    region's output, which is the reference's term entry by entry. -/
theorem algebraic : Cert.algebraic_KernelIdeal_ReferenceIdeal := by
  intro m ρ m' ρ' hpre hagree
  refine ⟨fun c => Cert.KernelIdeal.Gen.W8 m ρ c (Proc.devRef .tc Cert.KernelIdeal.main_v41),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, (hagree c).1, (hagree c).2.1, (hagree c).2.2.1, (hagree c).2.2.2.1,
    (hagree c).2.2.2.2.1, (hagree c).2.2.2.2.2]
  exact Cert.Bridge.result_eq m ρ c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
